-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v122) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x86 : Shape := ⟨2, ![20000, 86]⟩
abbrev S2x320000 : Shape := ⟨2, ![2, 320000]⟩
abbrev S86x128 : Shape := ⟨2, ![86, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S20000x86 : S_.BroadcastsInDim S20000x86 (![] : Fin 0 → Fin S20000x86.rank)
  reducesTo_S20000x86_S_d0_1 : S20000x86.ReducesTo [0, 1] S_
  h_S_ : 0 < S_.numel
  bcast_S_S86x128 : S_.BroadcastsInDim S86x128 (![] : Fin 0 → Fin S86x128.rank)
  reducesTo_S86x128_S_d0_1 : S86x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg12 : FVec F S256x512 .f32) (main_arg13 : FVec F S512 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256x512 .f32 := Host.absf main_arg12
  let main_cst_20 : FVec F S_ .f32 := constant S_ .f32 0x7F800000#32
  let main_v55 : FVec F S256x512 .f32 := broadcastInDim S256x512 ![] bcast_S_S256x512 main_cst_20
  let main_v56 : IVec S256x512 1 := cmpf .olt main_v54 main_v55
  let main_c_21 : IVec S_ 1 := constantI S_ 1 1#1
  let main_v57 : IVec S_ 1 := (fun x v => Host.reduce IntOp.andi x v reducesTo_S256x512_S_d0_1 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg8 : FVec F S128x256 .f32) (main_arg9 : FVec F S256 .f32) (main_arg10 : FVec F S256x512 .f32) (main_arg11 : FVec F S256x512 .f32) (main_arg12 : FVec F S256x512 .f32) (main_arg13 : FVec F S512 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg10
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256x512 .f32 := Host.absf main_arg11
  let main_cst_18 : FVec F S_ .f32 := constant S_ .f32 0x7F800000#32
  let main_v50 : FVec F S256x512 .f32 := broadcastInDim S256x512 ![] bcast_S_S256x512 main_cst_18
  fn_part3 (F := F) main_arg12 main_arg13 main_v48 main_v49 main_v50

def fn_part1 {F : FTy → Type} [FloatOps F] (main_arg5 : FVec F S128 .f32) (main_arg6 : FVec F S128x256 .f32) (main_arg7 : FVec F S128x256 .f32) (main_arg8 : FVec F S128x256 .f32) (main_arg9 : FVec F S256 .f32) (main_arg10 : FVec F S256x512 .f32) (main_arg11 : FVec F S256x512 .f32) (main_arg12 : FVec F S256x512 .f32) (main_arg13 : FVec F S512 .f32) (main_v13 : IVec S_ 1) (main_v16 : IVec S86x128 1) : IVec S_ 1 :=
  let main_c_5 : IVec S_ 1 := constantI S_ 1 1#1
  let main_v17 : IVec S_ 1 := (fun x v => Host.reduce IntOp.andi x v reducesTo_S86x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x86 .f32) (main_arg1 : IVec S2x320000 32) (main_arg2 : FVec F S86x128 .f32) (main_arg3 : FVec F S86x128 .f32) (main_arg4 : FVec F S86x128 .f32) (main_arg5 : FVec F S128 .f32) (main_arg6 : FVec F S128x256 .f32) (main_arg7 : FVec F S128x256 .f32) (main_arg8 : FVec F S128x256 .f32) (main_arg9 : FVec F S256 .f32) (main_arg10 : FVec F S256x512 .f32) (main_arg11 : FVec F S256x512 .f32) (main_arg12 : FVec F S256x512 .f32) (main_arg13 : FVec F S512 .f32) : IVec S_ 1 :=
  let main_v0 : FVec F S20000x86 .f32 := Host.absf main_arg0
  let main_cst : FVec F S_ .f32 := constant S_ .f32 0x7F800000#32
  let main_v1 : FVec F S20000x86 .f32 := broadcastInDim S20000x86 ![] bcast_S_S20000x86 main_cst
  let main_v2 : IVec S20000x86 1 := cmpf .olt main_v0 main_v1
  let main_c : IVec S_ 1 := constantI S_ 1 1#1
  let main_v3 : IVec S_ 1 := (fun x v => Host.reduce IntOp.andi x v reducesTo_S20000x86_S_d0_1 h_S_) main_v2 main_c
  let main_v4 : FVec F S86x128 .f32 := Host.absf main_arg2
  let main_cst_0 : FVec F S_ .f32 := constant S_ .f32 0x7F800000#32
  let main_v5 : FVec F S86x128 .f32 := broadcastInDim S86x128 ![] bcast_S_S86x128 main_cst_0
  let main_v6 : IVec S86x128 1 := cmpf .olt main_v4 main_v5
  let main_c_1 : IVec S_ 1 := constantI S_ 1 1#1
  let main_v7 : IVec S_ 1 := (fun x v => Host.reduce IntOp.andi x v reducesTo_S86x128_S_d0_1 h_S_) main_v6 main_c_1
  let main_v8 : IVec S_ 1 := andi main_v3 main_v7
  let main_v9 : FVec F S86x128 .f32 := Host.absf main_arg3
  let main_cst_2 : FVec F S_ .f32 := constant S_ .f32 0x7F800000#32
  let main_v10 : FVec F S86x128 .f32 := broadcastInDim S86x128 ![] bcast_S_S86x128 main_cst_2
  let main_v11 : IVec S86x128 1 := cmpf .olt main_v9 main_v10
  let main_c_3 : IVec S_ 1 := constantI S_ 1 1#1
  let main_v12 : IVec S_ 1 := (fun x v => Host.reduce IntOp.andi x v reducesTo_S86x128_S_d0_1 h_S_) main_v11 main_c_3
  let main_v13 : IVec S_ 1 := andi main_v8 main_v12
  let main_v14 : FVec F S86x128 .f32 := Host.absf main_arg4
  let main_cst_4 : FVec F S_ .f32 := constant S_ .f32 0x7F800000#32
  let main_v15 : FVec F S86x128 .f32 := broadcastInDim S86x128 ![] bcast_S_S86x128 main_cst_4
  let main_v16 : IVec S86x128 1 := cmpf .olt main_v14 main_v15
  fn_part1 (F := F) main_arg5 main_arg6 main_arg7 main_arg8 main_arg9 main_arg10 main_arg11 main_arg12 main_arg13 main_v13 main_v16
-- ==== Kernel.lean ====
abbrev S20000x86 : Shape := ⟨2, ![20000, 86]⟩
abbrev S2x320000 : Shape := ⟨2, ![2, 320000]⟩
abbrev S86x128 : Shape := ⟨2, ![86, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x320000 : Shape := ⟨2, ![1, 320000]⟩
abbrev S320000 : Shape := ⟨1, ![320000]⟩
abbrev S_ : Shape := ⟨0, ![]⟩
abbrev S20000 : Shape := ⟨1, ![20000]⟩
abbrev S320000x1 : Shape := ⟨2, ![320000, 1]⟩
abbrev S320000x86 : Shape := ⟨2, ![320000, 86]⟩
abbrev S1x128 : Shape := ⟨2, ![1, 128]⟩
abbrev S20000x128 : Shape := ⟨2, ![20000, 128]⟩
abbrev S2000x86 : Shape := ⟨2, ![2000, 86]⟩
abbrev S2000x128 : Shape := ⟨2, ![2000, 128]⟩
abbrev S320000x128 : Shape := ⟨2, ![320000, 128]⟩
abbrev S1x256 : Shape := ⟨2, ![1, 256]⟩
abbrev S20000x256 : Shape := ⟨2, ![20000, 256]⟩
abbrev S2000x256 : Shape := ⟨2, ![2000, 256]⟩
abbrev S320000x256 : Shape := ⟨2, ![320000, 256]⟩
abbrev S1x512 : Shape := ⟨2, ![1, 512]⟩
abbrev S20000x512 : Shape := ⟨2, ![20000, 512]⟩
abbrev S2000x512 : Shape := ⟨2, ![2000, 512]⟩

abbrev nBuf : Space → Nat
  | .hbm => 169
  | .vmem => 36
  | .smem => 0
  | _ => 0

abbrev hbmTy0_0 (i : Nat) : BufTy := match i % 128 with
  | 0 => ⟨S20000x86, .f32⟩
  | 1 => ⟨S2x320000, .i32⟩
  | 2 => ⟨S86x128, .f32⟩
  | 3 => ⟨S86x128, .f32⟩
  | 4 => ⟨S86x128, .f32⟩
  | 5 => ⟨S128, .f32⟩
  | 6 => ⟨S128x256, .f32⟩
  | 7 => ⟨S128x256, .f32⟩
  | 8 => ⟨S128x256, .f32⟩
  | 9 => ⟨S256, .f32⟩
  | 10 => ⟨S256x512, .f32⟩
  | 11 => ⟨S256x512, .f32⟩
  | 12 => ⟨S256x512, .f32⟩
  | 13 => ⟨S512, .f32⟩
  | 14 => ⟨S1x320000, .i32⟩
  | 15 => ⟨S320000, .i32⟩
  | 16 => ⟨S1x320000, .i32⟩
  | 17 => ⟨S320000, .i32⟩
  | 18 => ⟨S_, .f32⟩
  | 19 => ⟨S320000, .f32⟩
  | 20 => ⟨S_, .f32⟩
  | 21 => ⟨S20000, .f32⟩
  | 22 => ⟨S320000x1, .i32⟩
  | 23 => ⟨S20000, .f32⟩
  | 24 => ⟨S_, .f32⟩
  | 25 => ⟨S20000, .f32⟩
  | 26 => ⟨S20000, .i1⟩
  | 27 => ⟨S_, .f32⟩
  | 28 => ⟨S20000, .f32⟩
  | 29 => ⟨S20000, .f32⟩
  | 30 => ⟨S20000, .f32⟩
  | 31 => ⟨S_, .f32⟩
  | 32 => ⟨S_, .f32⟩
  | 33 => ⟨S20000, .f32⟩
  | 34 => ⟨S20000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x86, .f32⟩
  | 64 => ⟨S320000x1, .f32⟩
  | 65 => ⟨S320000x86, .f32⟩
  | 66 => ⟨S320000x86, .f32⟩
  | 67 => ⟨S_, .f32⟩
  | 68 => ⟨S20000x86, .f32⟩
  | 69 => ⟨S320000x1, .i32⟩
  | 70 => ⟨S20000x86, .f32⟩
  | 71 => ⟨S_, .i32⟩
  | 72 => ⟨S320000, .i32⟩
  | 73 => ⟨S320000, .i1⟩
  | 74 => ⟨S_, .i32⟩
  | 75 => ⟨S320000, .i32⟩
  | 76 => ⟨S320000, .i32⟩
  | 77 => ⟨S320000, .i32⟩
  | 78 => ⟨S320000x1, .i32⟩
  | 79 => ⟨S320000x86, .f32⟩
  | 80 => ⟨S320000x1, .f32⟩
  | 81 => ⟨S320000x86, .f32⟩
  | 82 => ⟨S320000x86, .f32⟩
  | 83 => ⟨S_, .f32⟩
  | 84 => ⟨S20000x86, .f32⟩
  | 85 => ⟨S320000x1, .i32⟩
  | 86 => ⟨S20000x86, .f32⟩
  | 87 => ⟨S_, .f32⟩
  | 88 => ⟨S20000x86, .f32⟩
  | 89 => ⟨S20000x86, .f32⟩
  | 90 => ⟨S20000x86, .f32⟩
  | 91 => ⟨S1x128, .f32⟩
  | 92 => ⟨S20000x128, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x128, .f32⟩
  | 102 => ⟨S320000x1, .f32⟩
  | 103 => ⟨S320000x128, .f32⟩
  | 104 => ⟨S320000x128, .f32⟩
  | 105 => ⟨S_, .f32⟩
  | 106 => ⟨S20000x128, .f32⟩
  | 107 => ⟨S320000x1, .i32⟩
  | 108 => ⟨S20000x128, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x128, .f32⟩
  | 118 => ⟨S320000x1, .f32⟩
  | 119 => ⟨S320000x128, .f32⟩
  | 120 => ⟨S320000x128, .f32⟩
  | 121 => ⟨S_, .f32⟩
  | 122 => ⟨S20000x128, .f32⟩
  | 123 => ⟨S320000x1, .i32⟩
  | 124 => ⟨S20000x128, .f32⟩
  | 125 => ⟨S_, .f32⟩
  | 126 => ⟨S20000x128, .f32⟩
  | 127 => ⟨S20000x128, .f32⟩
  | _ => ⟨S20000x86, .f32⟩

abbrev hbmTy0_1 (i : Nat) : BufTy := match i % 128 with
  | 0 => ⟨S20000x128, .f32⟩
  | 1 => ⟨S1x256, .f32⟩
  | 2 => ⟨S20000x256, .f32⟩
  | 3 => ⟨S_, .i32⟩
  | 4 => ⟨S320000, .i32⟩
  | 5 => ⟨S320000, .i1⟩
  | 6 => ⟨S_, .i32⟩
  | 7 => ⟨S320000, .i32⟩
  | 8 => ⟨S320000, .i32⟩
  | 9 => ⟨S320000, .i32⟩
  | 10 => ⟨S320000x1, .i32⟩
  | 11 => ⟨S320000x256, .f32⟩
  | 12 => ⟨S320000x1, .f32⟩
  | 13 => ⟨S320000x256, .f32⟩
  | 14 => ⟨S320000x256, .f32⟩
  | 15 => ⟨S_, .f32⟩
  | 16 => ⟨S20000x256, .f32⟩
  | 17 => ⟨S320000x1, .i32⟩
  | 18 => ⟨S20000x256, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x256, .f32⟩
  | 28 => ⟨S320000x1, .f32⟩
  | 29 => ⟨S320000x256, .f32⟩
  | 30 => ⟨S320000x256, .f32⟩
  | 31 => ⟨S_, .f32⟩
  | 32 => ⟨S20000x256, .f32⟩
  | 33 => ⟨S320000x1, .i32⟩
  | 34 => ⟨S20000x256, .f32⟩
  | 35 => ⟨S_, .f32⟩
  | 36 => ⟨S20000x256, .f32⟩
  | 37 => ⟨S20000x256, .f32⟩
  | 38 => ⟨S20000x256, .f32⟩
  | 39 => ⟨S1x512, .f32⟩
  | 40 => ⟨S20000x512, .f32⟩
  | _ => ⟨S20000x86, .f32⟩

abbrev hbmTy (i : Nat) : BufTy := match i / 128 with
  | 0 => hbmTy0_0 i
  | 1 => hbmTy0_1 i
  | _ => ⟨S20000x86, .f32⟩

abbrev bufTy : (tb : Table) → Fin (tcTables nBuf tb) → BufTy
  | .hbm, ⟨i, _⟩ => hbmTy i
  | .local _ .vmem, ⟨0, _⟩ => ⟨S2000x86, .f32⟩
  | .local _ .vmem, ⟨1, _⟩ => ⟨S2000x86, .f32⟩
  | .local _ .vmem, ⟨2, _⟩ => ⟨S2000x86, .f32⟩
  | .local _ .vmem, ⟨3, _⟩ => ⟨S2000x86, .f32⟩
  | .local _ .vmem, ⟨4, _⟩ => ⟨S2000x86, .f32⟩
  | .local _ .vmem, ⟨5, _⟩ => ⟨S2000x86, .f32⟩
  | .local _ .vmem, ⟨6, _⟩ => ⟨S86x128, .f32⟩
  | .local _ .vmem, ⟨7, _⟩ => ⟨S86x128, .f32⟩
  | .local _ .vmem, ⟨8, _⟩ => ⟨S86x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S1x512, .f32⟩
  | .local _ .vmem, ⟨34, _⟩ => ⟨S2000x512, .f32⟩
  | .local _ .vmem, ⟨35, _⟩ => ⟨S2000x512, .f32⟩
  | _, _ => ⟨S20000x86, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_17 : Ref sig .tc := ⟨.hbm, 109, rfl⟩
abbrev main_v74 : Ref sig .tc := ⟨.hbm, 110, rfl⟩
abbrev main_v75 : Ref sig .tc := ⟨.hbm, 111, rfl⟩
abbrev main_c_18 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_20 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_21 : Ref sig .tc := ⟨.hbm, 131, rfl⟩
abbrev main_v92 : Ref sig .tc := ⟨.hbm, 132, rfl⟩
abbrev main_v93 : Ref sig .tc := ⟨.hbm, 133, rfl⟩
abbrev main_c_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_24 : Ref sig .tc := ⟨.hbm, 147, rfl⟩
abbrev main_v105 : Ref sig .tc := ⟨.hbm, 148, rfl⟩
abbrev main_v106 : Ref sig .tc := ⟨.hbm, 149, rfl⟩
abbrev main_c_25 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_26 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_27 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x86 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x86 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x86 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S86x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S86x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S86x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S320000x1_S320000x86_0_1 : S320000x1.BroadcastsInDim S320000x86 (![0, 1] : Fin 2 → Fin S320000x86.rank)
  bcast_S_S20000x86 : S_.BroadcastsInDim S20000x86 (![] : Fin 0 → Fin S20000x86.rank)
  shapeCasts_S128_S1x128 : S128.ShapeCasts S1x128
  inb_S2000x86_S2000x86_0_0 : ∀ a, (![0, 0] : Fin 2 → Nat) a + S2000x86.size a ≤ S2000x86.size a
  h_S2000x86 : 0 < S2000x86.numel
  bitsLt_bf16_f32 : FTy.bits .bf16 < FTy.bits .f32
  shapeCasts_S2000x86_S2000x86 : S2000x86.ShapeCasts S2000x86
  inb_S86x128_S86x128_0_0 : ∀ a, (![0, 0] : Fin 2 → Nat) a + S86x128.size a ≤ S86x128.size a
  h_S86x128 : 0 < S86x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  shapeCasts_S512_S1x512 : S512.ShapeCasts S1x512
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x86_S320000x1_S320000x86_1_0_n_n_0_1_186_wf : GatherDims.WF S20000x86 S320000x1 S320000x86 [1] [0] [] [0] [] 1 ![1, 86]
  scatter_S20000x86_S320000x1_S320000x86_1_0_0_1_wf : ScatterDims.WF S20000x86 S320000x1 S320000x86 [1] [0] [0] 1
  dot_S2000x86_S86x128_S2000x128_1_0_0_1_n_n_wf : DotDims.WF S2000x86 S86x128 S2000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S2000x128_S128x256_S2000x256_1_0_0_1_n_n_wf : DotDims.WF S2000x128 S128x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x86.size a ≤ S20000x86.size a
  hwx0_0 : ∀ i : grid0.Coords, EltTy.bits .f32 = 32 ∨ (Rect.block (s := S20000x86) S2000x86.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x86.size a ≤ S20000x86.size a
  hwx0_1 : ∀ i : grid0.Coords, EltTy.bits .f32 = 32 ∨ (Rect.block (s := S20000x86) S2000x86.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x86.size a ≤ S20000x86.size a
  hwx0_2 : ∀ i : grid0.Coords, EltTy.bits .f32 = 32 ∨ (Rect.block (s := S20000x86) S2000x86.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S86x128.size a ≤ S86x128.size a
  hwx0_3 : ∀ i : grid0.Coords, EltTy.bits .f32 = 32 ∨ (Rect.block (s := S86x128) S86x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S86x128.size a ≤ S86x128.size a
  hwx0_4 : ∀ i : grid0.Coords, EltTy.bits .f32 = 32 ∨ (Rect.block (s := S86x128) S86x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S86x128.size a ≤ S86x128.size a
  hwx0_5 : ∀ i : grid0.Coords, EltTy.bits .f32 = 32 ∨ (Rect.block (s := S86x128) S86x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S20000x128.size a
  hwx0_7 : ∀ i : grid0.Coords, EltTy.bits .f32 = 32 ∨ (Rect.block (s := S20000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S20000x128.size a
  hwx1_2 : ∀ i : grid1.Coords, EltTy.bits .f32 = 32 ∨ (Rect.block (s := S20000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S20000x256.size a
  hwx1_7 : ∀ i : grid1.Coords, EltTy.bits .f32 = 32 ∨ (Rect.block (s := S20000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .f32 = 32 ∨ (Rect.block (s := S256x512) S256x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x512.size a ≤ S256x512.size a
  hwx2_4 : ∀ i : grid2.Coords, EltTy.bits .f32 = 32 ∨ (Rect.block (s := S256x512) S256x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S256x512.size a
  hwx2_5 : ∀ i : grid2.Coords, EltTy.bits .f32 = 32 ∨ (Rect.block (s := S256x512) S256x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x512.size a ≤ S20000x512.size a
  hwx2_7 : ∀ i : grid2.Coords, EltTy.bits .f32 = 32 ∨ (Rect.block (s := S20000x512) S2000x512.size (cc2_transform_7 i) (hinb2_7 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x86_S320000x1_S320000x86_1_0_n_n_0_1_186 : GatherDims S20000x86 S320000x1 S320000x86 where
  offsetDims := [1]
  collapsedSliceDims := [0]
  operandBatchingDims := []
  startIndicesBatchingDims := []
  startIndexMap := [0]
  indexVectorDim := 1
  sliceSizes := ![1, 86]
  wf := gather_S20000x86_S320000x1_S320000x86_1_0_n_n_0_1_186_wf
def scatter_S20000x86_S320000x1_S320000x86_1_0_0_1 : ScatterDims S20000x86 S320000x1 S320000x86 where
  updateWindowDims := [1]
  insertedWindowDims := [0]
  scatterDimsToOperandDims := [0]
  indexVectorDim := 1
  wf := scatter_S20000x86_S320000x1_S320000x86_1_0_0_1_wf
def dot_S2000x86_S86x128_S2000x128_1_0_0_1_n_n : DotDims S2000x86 S86x128 S2000x128 where
  lhsContracting := [1]
  rhsContracting := [0]
  lhsNonContracting := [0]
  rhsNonContracting := [1]
  lhsBatch := []
  rhsBatch := []
  wf := dot_S2000x86_S86x128_S2000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_arg0) S2000x86.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x86.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v58) S2000x86.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S86x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S86x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S86x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v60) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v89) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v90) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v91) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v91) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v104) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v120) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S256x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v121) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v122) S2000x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x86 : Shape := ⟨2, ![20000, 86]⟩
abbrev S2x320000 : Shape := ⟨2, ![2, 320000]⟩
abbrev S86x128 : Shape := ⟨2, ![86, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x320000 : Shape := ⟨2, ![1, 320000]⟩
abbrev S320000 : Shape := ⟨1, ![320000]⟩
abbrev S_ : Shape := ⟨0, ![]⟩
abbrev S20000 : Shape := ⟨1, ![20000]⟩
abbrev S320000x1 : Shape := ⟨2, ![320000, 1]⟩
abbrev S320000x86 : Shape := ⟨2, ![320000, 86]⟩
abbrev S20000x128 : Shape := ⟨2, ![20000, 128]⟩
abbrev S1x128 : Shape := ⟨2, ![1, 128]⟩
abbrev S320000x128 : Shape := ⟨2, ![320000, 128]⟩
abbrev S20000x256 : Shape := ⟨2, ![20000, 256]⟩
abbrev S1x256 : Shape := ⟨2, ![1, 256]⟩
abbrev S320000x256 : Shape := ⟨2, ![320000, 256]⟩
abbrev S20000x512 : Shape := ⟨2, ![20000, 512]⟩
abbrev S1x512 : Shape := ⟨2, ![1, 512]⟩

abbrev nBuf : Space → Nat
  | .hbm => 196
  | .vmem => 0
  | .smem => 0
  | _ => 0

abbrev hbmTy0_0 (i : Nat) : BufTy := match i % 128 with
  | 0 => ⟨S20000x86, .f32⟩
  | 1 => ⟨S2x320000, .i32⟩
  | 2 => ⟨S86x128, .f32⟩
  | 3 => ⟨S86x128, .f32⟩
  | 4 => ⟨S86x128, .f32⟩
  | 5 => ⟨S128, .f32⟩
  | 6 => ⟨S128x256, .f32⟩
  | 7 => ⟨S128x256, .f32⟩
  | 8 => ⟨S128x256, .f32⟩
  | 9 => ⟨S256, .f32⟩
  | 10 => ⟨S256x512, .f32⟩
  | 11 => ⟨S256x512, .f32⟩
  | 12 => ⟨S256x512, .f32⟩
  | 13 => ⟨S512, .f32⟩
  | 14 => ⟨S1x320000, .i32⟩
  | 15 => ⟨S320000, .i32⟩
  | 16 => ⟨S1x320000, .i32⟩
  | 17 => ⟨S320000, .i32⟩
  | 18 => ⟨S_, .f32⟩
  | 19 => ⟨S320000, .f32⟩
  | 20 => ⟨S_, .f32⟩
  | 21 => ⟨S20000, .f32⟩
  | 22 => ⟨S320000x1, .i32⟩
  | 23 => ⟨S20000, .f32⟩
  | 24 => ⟨S_, .f32⟩
  | 25 => ⟨S20000, .f32⟩
  | 26 => ⟨S20000, .i1⟩
  | 27 => ⟨S_, .f32⟩
  | 28 => ⟨S20000, .f32⟩
  | 29 => ⟨S20000, .f32⟩
  | 30 => ⟨S20000, .f32⟩
  | 31 => ⟨S_, .f32⟩
  | 32 => ⟨S_, .f32⟩
  | 33 => ⟨S20000, .f32⟩
  | 34 => ⟨S20000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S320000, .f32⟩
  | 45 => ⟨S_, .i32⟩
  | 46 => ⟨S320000, .i32⟩
  | 47 => ⟨S320000, .i1⟩
  | 48 => ⟨S_, .i32⟩
  | 49 => ⟨S320000, .i32⟩
  | 50 => ⟨S320000, .i32⟩
  | 51 => ⟨S320000, .i32⟩
  | 52 => ⟨S320000x1, .i32⟩
  | 53 => ⟨S320000, .f32⟩
  | 54 => ⟨S320000, .f32⟩
  | 55 => ⟨S320000x1, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x86, .f32⟩
  | 65 => ⟨S320000x86, .f32⟩
  | 66 => ⟨S320000x86, .f32⟩
  | 67 => ⟨S_, .f32⟩
  | 68 => ⟨S20000x86, .f32⟩
  | 69 => ⟨S320000x1, .i32⟩
  | 70 => ⟨S20000x86, .f32⟩
  | 71 => ⟨S320000x1, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x86, .f32⟩
  | 81 => ⟨S320000x86, .f32⟩
  | 82 => ⟨S320000x86, .f32⟩
  | 83 => ⟨S_, .f32⟩
  | 84 => ⟨S20000x86, .f32⟩
  | 85 => ⟨S320000x1, .i32⟩
  | 86 => ⟨S20000x86, .f32⟩
  | 87 => ⟨S_, .f32⟩
  | 88 => ⟨S20000x86, .f32⟩
  | 89 => ⟨S20000x86, .f32⟩
  | 90 => ⟨S20000x86, .f32⟩
  | 91 => ⟨S20000x128, .f32⟩
  | 92 => ⟨S20000x128, .f32⟩
  | 93 => ⟨S20000x128, .f32⟩
  | 94 => ⟨S20000x128, .f32⟩
  | 95 => ⟨S20000x128, .f32⟩
  | 96 => ⟨S1x128, .f32⟩
  | 97 => ⟨S20000x128, .f32⟩
  | 98 => ⟨S20000x128, .f32⟩
  | 99 => ⟨S_, .f32⟩
  | 100 => ⟨S20000x128, .f32⟩
  | 101 => ⟨S20000x128, .f32⟩
  | 102 => ⟨S320000x1, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x128, .f32⟩
  | 112 => ⟨S320000x128, .f32⟩
  | 113 => ⟨S320000x128, .f32⟩
  | 114 => ⟨S_, .f32⟩
  | 115 => ⟨S20000x128, .f32⟩
  | 116 => ⟨S320000x1, .i32⟩
  | 117 => ⟨S20000x128, .f32⟩
  | 118 => ⟨S320000x1, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x128, .f32⟩
  | _ => ⟨S20000x86, .f32⟩

abbrev hbmTy0_1 (i : Nat) : BufTy := match i % 128 with
  | 0 => ⟨S320000x128, .f32⟩
  | 1 => ⟨S320000x128, .f32⟩
  | 2 => ⟨S_, .f32⟩
  | 3 => ⟨S20000x128, .f32⟩
  | 4 => ⟨S320000x1, .i32⟩
  | 5 => ⟨S20000x128, .f32⟩
  | 6 => ⟨S_, .f32⟩
  | 7 => ⟨S20000x128, .f32⟩
  | 8 => ⟨S20000x128, .f32⟩
  | 9 => ⟨S20000x128, .f32⟩
  | 10 => ⟨S20000x256, .f32⟩
  | 11 => ⟨S20000x256, .f32⟩
  | 12 => ⟨S20000x256, .f32⟩
  | 13 => ⟨S20000x256, .f32⟩
  | 14 => ⟨S20000x256, .f32⟩
  | 15 => ⟨S1x256, .f32⟩
  | 16 => ⟨S20000x256, .f32⟩
  | 17 => ⟨S20000x256, .f32⟩
  | 18 => ⟨S_, .f32⟩
  | 19 => ⟨S20000x256, .f32⟩
  | 20 => ⟨S20000x256, .f32⟩
  | 21 => ⟨S320000x1, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x256, .f32⟩
  | 31 => ⟨S320000x256, .f32⟩
  | 32 => ⟨S320000x256, .f32⟩
  | 33 => ⟨S_, .f32⟩
  | 34 => ⟨S20000x256, .f32⟩
  | 35 => ⟨S320000x1, .i32⟩
  | 36 => ⟨S20000x256, .f32⟩
  | 37 => ⟨S320000x1, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x256, .f32⟩
  | 47 => ⟨S320000x256, .f32⟩
  | 48 => ⟨S320000x256, .f32⟩
  | 49 => ⟨S_, .f32⟩
  | 50 => ⟨S20000x256, .f32⟩
  | 51 => ⟨S320000x1, .i32⟩
  | 52 => ⟨S20000x256, .f32⟩
  | 53 => ⟨S_, .f32⟩
  | 54 => ⟨S20000x256, .f32⟩
  | 55 => ⟨S20000x256, .f32⟩
  | 56 => ⟨S20000x256, .f32⟩
  | 57 => ⟨S20000x512, .f32⟩
  | 58 => ⟨S20000x512, .f32⟩
  | 59 => ⟨S20000x512, .f32⟩
  | 60 => ⟨S20000x512, .f32⟩
  | 61 => ⟨S20000x512, .f32⟩
  | 62 => ⟨S1x512, .f32⟩
  | 63 => ⟨S20000x512, .f32⟩
  | 64 => ⟨S20000x512, .f32⟩
  | 65 => ⟨S_, .f32⟩
  | 66 => ⟨S20000x512, .f32⟩
  | 67 => ⟨S20000x512, .f32⟩
  | _ => ⟨S20000x86, .f32⟩

abbrev hbmTy (i : Nat) : BufTy := match i / 128 with
  | 0 => hbmTy0_0 i
  | 1 => hbmTy0_1 i
  | _ => ⟨S20000x86, .f32⟩

abbrev bufTy : (tb : Table) → Fin (tcTables nBuf tb) → BufTy
  | .hbm, ⟨i, _⟩ => hbmTy i
  | _, _ => ⟨S20000x86, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_cst : Ref sig .tc := ⟨.hbm, 99, rfl⟩
abbrev main_call1_v0 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_call2_cst : Ref sig .tc := ⟨.hbm, 146, rfl⟩
abbrev main_call2_v0 : Ref sig .tc := ⟨.hbm, 147, rfl⟩
abbrev main_v105 : Ref sig .tc := ⟨.hbm, 148, rfl⟩
abbrev main_v106 : Ref sig .tc := ⟨.hbm, 149, rfl⟩
abbrev main_c_21 : Ref sig .tc := ⟨.hbm, 150, rfl⟩
abbrev main_v107 : Ref sig .tc := ⟨.hbm, 151, rfl⟩
abbrev main_v108 : Ref sig .tc := ⟨.hbm, 152, rfl⟩
abbrev main_c_22 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_23 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_24 : Ref sig .tc := ⟨.hbm, 166, rfl⟩
abbrev main_v120 : Ref sig .tc := ⟨.hbm, 167, rfl⟩
abbrev main_v121 : Ref sig .tc := ⟨.hbm, 168, rfl⟩
abbrev main_c_25 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_26 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_27 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_call3_cst : Ref sig .tc := ⟨.hbm, 193, rfl⟩
abbrev main_call3_v0 : Ref sig .tc := ⟨.hbm, 194, rfl⟩
abbrev main_v143 : Ref sig .tc := ⟨.hbm, 195, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S320000x1_S320000x86_0_1 : S320000x1.BroadcastsInDim S320000x86 (![0, 1] : Fin 2 → Fin S320000x86.rank)
  bcast_S_S20000x86 : S_.BroadcastsInDim S20000x86 (![] : Fin 0 → Fin S20000x86.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S320000x1_S320000x128_0_1 : S320000x1.BroadcastsInDim S320000x128 (![0, 1] : Fin 2 → Fin S320000x128.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S320000x1_S320000x256_0_1 : S320000x1.BroadcastsInDim S320000x256 (![0, 1] : Fin 2 → Fin S320000x256.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x86_S320000x1_S320000x86_1_0_n_n_0_1_186_wf : GatherDims.WF S20000x86 S320000x1 S320000x86 [1] [0] [] [0] [] 1 ![1, 86]
  scatter_S20000x86_S320000x1_S320000x86_1_0_0_1_wf : ScatterDims.WF S20000x86 S320000x1 S320000x86 [1] [0] [0] 1
  dot_S20000x86_S86x128_S20000x128_1_0_0_1_n_n_wf : DotDims.WF S20000x86 S86x128 S20000x128 [1] [0] [0] [1] [] []
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x256_S20000x256_1_0_0_1_n_n_wf : DotDims.WF S20000x128 S128x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x512_S20000x512_1_0_0_1_n_n_wf : DotDims.WF S20000x256 S256x512 S20000x512 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x86_S320000x1_S320000x86_1_0_n_n_0_1_186 : GatherDims S20000x86 S320000x1 S320000x86 where
  offsetDims := [1]
  collapsedSliceDims := [0]
  operandBatchingDims := []
  startIndicesBatchingDims := []
  startIndexMap := [0]
  indexVectorDim := 1
  sliceSizes := ![1, 86]
  wf := gather_S20000x86_S320000x1_S320000x86_1_0_n_n_0_1_186_wf
def scatter_S20000x86_S320000x1_S320000x86_1_0_0_1 : ScatterDims S20000x86 S320000x1 S320000x86 where
  updateWindowDims := [1]
  insertedWindowDims := [0]
  scatterDimsToOperandDims := [0]
  indexVectorDim := 1
  wf := scatter_S20000x86_S320000x1_S320000x86_1_0_0_1_wf
def dot_S20000x86_S86x128_S20000x128_1_0_0_1_n_n : DotDims S20000x86 S86x128 S20000x128 where
  lhsContracting := [1]
  rhsContracting := [0]
  lhsNonContracting := [0]
  rhsNonContracting := [1]
  lhsBatch := []
  rhsBatch := []
  wf := dot_S20000x86_S86x128_S20000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibChebLayer.lean ====
/-
  One Chebyshev graph-convolution layer's dense stage, as a whole-array function over the extended reals.

  For [P, K] arrays x, z1, z2 (the three Chebyshev terms T0, T1, T2 of the node features), [K, Q] weights W0, W1, W2
  and a bias row b of length Q,
      cheb x z1 z2 W0 W1 W2 b (p, q)
        = max ( ((∑ k, x (p,k)·W0 (k,q)) + (∑ k, z1 (p,k)·W1 (k,q))) + (∑ k, z2 (p,k)·W2 (k,q)) + b q , 0 ).
  A kernel spells it with three matrix products of operands rounded to bf16, each accumulated into zero, the row
  broadcast of a [1, Q] bias block, and a maximum with a splat zero; a host program spells it with three general dot
  products, two broadcasts of a length-Q bias, and a maximum with a broadcast zero constant.  At the ideal instance a
  rounding is the identity and every product is the exact sum over the contracted axis, so both spellings ARE `cheb`,
  with the additions associated the same way.  Entry (p, q) reads row p of x, z1, z2 only (`cheb_congr`): that is what
  lets a block of rows of the result be computed from the same block of rows of the inputs.
-/
import Idealize.ShloMosaic.Lib.ValueIdx
import Idealize.ShloMosaic.Lib.Pipeline.Value
import Idealize.ShloMosaic.PureOps.Ideal.Laws
import proofs.«154369_j43688407335391_1_alg».proof.Proof.LibPlainDot

noncomputable section

namespace ChebLayer

open Idealize.ShloMosaic Idealize.ShloMosaic.ValueIdx

variable {P P' K Q : Nat}

/-- A [a, b] array of extended reals. -/
abbrev Mat (a b : Nat) := (⟨2, ![a, b]⟩ : Shape).Idx → EReal

/-- The dense stage of one layer, entry by entry; the zero of the final maximum is kept as the float word it is
    printed as (the same word on both sides, never evaluated). -/
def cheb (x z1 z2 : Mat P K) (W0 W1 W2 : Mat K Q) (b : Fin Q → EReal) : Mat P Q :=
  fun i => max ((((∑ k : Fin K, x (ix2 (n0 := P) (i 0) k) * W0 (ix2 k (n1 := Q) (i 1)))
      + (∑ k : Fin K, z1 (ix2 (n0 := P) (i 0) k) * W1 (ix2 k (n1 := Q) (i 1))))
      + (∑ k : Fin K, z2 (ix2 (n0 := P) (i 0) k) * W2 (ix2 k (n1 := Q) (i 1)))) + b (i 1))
    (Ideal.ofBits .f32 0x00000000#32)

theorem cheb_ix2 (x z1 z2 : Mat P K) (W0 W1 W2 : Mat K Q) (b : Fin Q → EReal) (p : Fin P) (q : Fin Q) :
    cheb x z1 z2 W0 W1 W2 b (ix2 p q)
      = max ((((∑ k : Fin K, x (ix2 p k) * W0 (ix2 k q)) + (∑ k : Fin K, z1 (ix2 p k) * W1 (ix2 k q)))
          + (∑ k : Fin K, z2 (ix2 p k) * W2 (ix2 k q))) + b q) (Ideal.ofBits .f32 0x00000000#32) := rfl

/-- Entry (p, q) reads row p of the three feature arrays, column q of the three weight arrays, entry q of the bias,
    and nothing else. -/
theorem cheb_congr {x z1 z2 : Mat P K} {x' z1' z2' : Mat P' K} {W0 W1 W2 W0' W1' W2' : Mat K Q} {b b' : Fin Q → EReal}
    {p : Fin P} {p' : Fin P'} {q : Fin Q}
    (hx : ∀ k, x (ix2 p k) = x' (ix2 p' k)) (h1 : ∀ k, z1 (ix2 p k) = z1' (ix2 p' k))
    (h2 : ∀ k, z2 (ix2 p k) = z2' (ix2 p' k))
    (hW0 : ∀ k, W0 (ix2 k q) = W0' (ix2 k q)) (hW1 : ∀ k, W1 (ix2 k q) = W1' (ix2 k q))
    (hW2 : ∀ k, W2 (ix2 k q) = W2' (ix2 k q)) (hb : b q = b' q) :
    cheb x z1 z2 W0 W1 W2 b (ix2 p q) = cheb x' z1' z2' W0' W1' W2' b' (ix2 p' q) := by
  have e0 : (∑ k : Fin K, x (ix2 p k) * W0 (ix2 k q)) = ∑ k : Fin K, x' (ix2 p' k) * W0' (ix2 k q) :=
    Finset.sum_congr rfl fun k _ => by rw [hx k, hW0 k]
  have e1 : (∑ k : Fin K, z1 (ix2 p k) * W1 (ix2 k q)) = ∑ k : Fin K, z1' (ix2 p' k) * W1' (ix2 k q) :=
    Finset.sum_congr rfl fun k _ => by rw [h1 k, hW1 k]
  have e2 : (∑ k : Fin K, z2 (ix2 p k) * W2 (ix2 k q)) = ∑ k : Fin K, z2' (ix2 p' k) * W2' (ix2 k q) :=
    Finset.sum_congr rfl fun k _ => by rw [h2 k, hW2 k]
  rw [cheb_ix2, cheb_ix2, hb, e0, e1, e2]

/-- The same at any two indices: entry i of one layer and entry i' of another agree when the rows, columns and bias
    entries they read agree. -/
theorem cheb_congr_idx {x z1 z2 : Mat P K} {x' z1' z2' : Mat P' K} {W0 W1 W2 W0' W1' W2' : Mat K Q} {b b' : Fin Q → EReal}
    (i : (⟨2, ![P, Q]⟩ : Shape).Idx) (i' : (⟨2, ![P', Q]⟩ : Shape).Idx)
    (hx : ∀ k, x (ix2 (i 0) k) = x' (ix2 (i' 0) k)) (h1 : ∀ k, z1 (ix2 (i 0) k) = z1' (ix2 (i' 0) k))
    (h2 : ∀ k, z2 (ix2 (i 0) k) = z2' (ix2 (i' 0) k))
    (hW0 : ∀ k, W0 (ix2 k (i 1)) = W0' (ix2 k (i' 1))) (hW1 : ∀ k, W1 (ix2 k (i 1)) = W1' (ix2 k (i' 1)))
    (hW2 : ∀ k, W2 (ix2 k (i 1)) = W2' (ix2 k (i' 1))) (hb : b (i 1) = b' (i' 1)) :
    cheb x z1 z2 W0 W1 W2 b i = cheb x' z1' z2' W0' W1' W2' b' i' := by
  have e0 : (∑ k : Fin K, x (ix2 (i 0) k) * W0 (ix2 k (i 1))) = ∑ k : Fin K, x' (ix2 (i' 0) k) * W0' (ix2 k (i' 1)) :=
    Finset.sum_congr rfl fun k _ => by rw [hx k, hW0 k]
  have e1 : (∑ k : Fin K, z1 (ix2 (i 0) k) * W1 (ix2 k (i 1))) = ∑ k : Fin K, z1' (ix2 (i' 0) k) * W1' (ix2 k (i' 1)) :=
    Finset.sum_congr rfl fun k _ => by rw [h1 k, hW1 k]
  have e2 : (∑ k : Fin K, z2 (ix2 (i 0) k) * W2 (ix2 k (i 1))) = ∑ k : Fin K, z2' (ix2 (i' 0) k) * W2' (ix2 k (i' 1)) :=
    Finset.sum_congr rfl fun k _ => by rw [h2 k, hW2 k]
  show max ((((∑ k : Fin K, x (ix2 (i 0) k) * W0 (ix2 k (i 1))) + (∑ k : Fin K, z1 (ix2 (i 0) k) * W1 (ix2 k (i 1))))
      + (∑ k : Fin K, z2 (ix2 (i 0) k) * W2 (ix2 k (i 1)))) + b (i 1)) (Ideal.ofBits .f32 0x00000000#32)
    = max ((((∑ k : Fin K, x' (ix2 (i' 0) k) * W0' (ix2 k (i' 1))) + (∑ k : Fin K, z1' (ix2 (i' 0) k) * W1' (ix2 k (i' 1))))
      + (∑ k : Fin K, z2' (ix2 (i' 0) k) * W2' (ix2 k (i' 1)))) + b' (i' 1)) (Ideal.ofBits .f32 0x00000000#32)
  rw [e0, e1, e2, hb]

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING: three products of bf16-rounded operands into zero accumulators (the second and third
    feature blocks pass through a shape cast to their own shape), added left to right, plus the row broadcast of the
    [1, Q] bias block, then the maximum with a splat zero. -/
theorem kernel_cheb {d : DotDims ⟨2, ![P, K]⟩ ⟨2, ![K, Q]⟩ ⟨2, ![P, Q]⟩} (hd : PlainDot.IsPlain d)
    (x z1 z2 : FVec Ideal ⟨2, ![P, K]⟩ .f32) (W0 W1 W2 : FVec Ideal ⟨2, ![K, Q]⟩ .f32) (b : FVec Ideal ⟨2, ![1, Q]⟩ .f32)
    (hr : FTy.bits .bf16 < FTy.bits .f32) (hsx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    maximumf (addf (addf (addf
        (matmul d none (truncf .bf16 x hr) (truncf .bf16 W0 hr) (constant ⟨2, ![P, Q]⟩ .f32 0x00000000#32))
        (matmul d none (truncf .bf16 (shapeCast ⟨2, ![P, K]⟩ z1 hsx) hr) (truncf .bf16 W1 hr) (constant ⟨2, ![P, Q]⟩ .f32 0x00000000#32)))
        (matmul d none (truncf .bf16 (shapeCast ⟨2, ![P, K]⟩ z2 hsx) hr) (truncf .bf16 W2 hr) (constant ⟨2, ![P, Q]⟩ .f32 0x00000000#32)))
        (broadcastTo ⟨2, ![P, Q]⟩ (shapeCast ⟨2, ![1, Q]⟩ b hsc) hbc))
      (broadcast ⟨2, ![P, Q]⟩ (Scalar.ofBits (F := Ideal) .f32 0x00000000#32))
    = cheb x z1 z2 W0 W1 W2 (fun q => b (ix2 (0 : Fin 1) q)) := by
  funext j
  obtain ⟨p, q, rfl⟩ : ∃ (p : Fin P) (q : Fin Q), j = ix2 p q := ⟨j 0, j 1, eq_ix2 j⟩
  rw [shapeCast_self, shapeCast_self, shapeCast_self, cheb_ix2]
  show FloatOps.maximumf (((FloatOps.matmul d none (truncf .bf16 x hr) (truncf .bf16 W0 hr) (constant ⟨2, ![P, Q]⟩ .f32 0x00000000#32) (ix2 p q)
      + FloatOps.matmul d none (truncf .bf16 z1 hr) (truncf .bf16 W1 hr) (constant ⟨2, ![P, Q]⟩ .f32 0x00000000#32) (ix2 p q))
      + FloatOps.matmul d none (truncf .bf16 z2 hr) (truncf .bf16 W2 hr) (constant ⟨2, ![P, Q]⟩ .f32 0x00000000#32) (ix2 p q))
      + broadcastTo ⟨2, ![P, Q]⟩ b hbc (ix2 p q)) (Ideal.ofBits .f32 0x00000000#32) = _
  rw [Ideal.maximumf_def, PlainDot.matmul_zero_apply hd, PlainDot.matmul_zero_apply hd, PlainDot.matmul_zero_apply hd,
    broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- The same spelling when the first feature block, too, passes through a shape cast to its own shape (the layers whose
    input is an earlier layer's result). -/
theorem kernel_cheb_cast {d : DotDims ⟨2, ![P, K]⟩ ⟨2, ![K, Q]⟩ ⟨2, ![P, Q]⟩} (hd : PlainDot.IsPlain d)
    (x z1 z2 : FVec Ideal ⟨2, ![P, K]⟩ .f32) (W0 W1 W2 : FVec Ideal ⟨2, ![K, Q]⟩ .f32) (b : FVec Ideal ⟨2, ![1, Q]⟩ .f32)
    (hr : FTy.bits .bf16 < FTy.bits .f32) (hsx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    maximumf (addf (addf (addf
        (matmul d none (truncf .bf16 (shapeCast ⟨2, ![P, K]⟩ x hsx) hr) (truncf .bf16 W0 hr) (constant ⟨2, ![P, Q]⟩ .f32 0x00000000#32))
        (matmul d none (truncf .bf16 (shapeCast ⟨2, ![P, K]⟩ z1 hsx) hr) (truncf .bf16 W1 hr) (constant ⟨2, ![P, Q]⟩ .f32 0x00000000#32)))
        (matmul d none (truncf .bf16 (shapeCast ⟨2, ![P, K]⟩ z2 hsx) hr) (truncf .bf16 W2 hr) (constant ⟨2, ![P, Q]⟩ .f32 0x00000000#32)))
        (broadcastTo ⟨2, ![P, Q]⟩ (shapeCast ⟨2, ![1, Q]⟩ b hsc) hbc))
      (broadcast ⟨2, ![P, Q]⟩ (Scalar.ofBits (F := Ideal) .f32 0x00000000#32))
    = cheb x z1 z2 W0 W1 W2 (fun q => b (ix2 (0 : Fin 1) q)) := by
  rw [shapeCast_self x hsx]
  exact kernel_cheb hd x z1 z2 W0 W1 W2 b hr hsx hsc hbc

/-- THE HOST'S SPELLING: three general dot products added left to right, plus a length-Q bias broadcast to [1, Q] and
    then to [P, Q], then the maximum with a broadcast zero constant. -/
theorem host_cheb {d : DotDims ⟨2, ![P, K]⟩ ⟨2, ![K, Q]⟩ ⟨2, ![P, Q]⟩} (hd : PlainDot.IsPlain d)
    (x z1 z2 : FVec Ideal ⟨2, ![P, K]⟩ .f32) (W0 W1 W2 : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1])
    (h0 : (⟨0, ![]⟩ : Shape).BroadcastsInDim ⟨2, ![P, Q]⟩ ![]) :
    maximumf (addf (addf (addf (Host.dotGeneral d none x W0) (Host.dotGeneral d none z1 W1)) (Host.dotGeneral d none z2 W2))
        (broadcastInDim ⟨2, ![P, Q]⟩ ![0, 1] h2 (broadcastInDim ⟨2, ![1, Q]⟩ ![1] h1 b)))
      (broadcastInDim ⟨2, ![P, Q]⟩ ![] h0 (constant (F := Ideal) ⟨0, ![]⟩ .f32 0x00000000#32))
    = cheb x z1 z2 W0 W1 W2 (fun q => b (ix1 q)) := by
  funext j
  obtain ⟨p, q, rfl⟩ : ∃ (p : Fin P) (q : Fin Q), j = ix2 p q := ⟨j 0, j 1, eq_ix2 j⟩
  rw [cheb_ix2]
  show FloatOps.maximumf (((FloatOps.dotGeneral d none .single x W0 (ix2 p q) + FloatOps.dotGeneral d none .single z1 W1 (ix2 p q))
      + FloatOps.dotGeneral d none .single z2 W2 (ix2 p q))
      + broadcastInDim ⟨2, ![P, Q]⟩ ![0, 1] h2 (broadcastInDim ⟨2, ![1, Q]⟩ ![1] h1 b) (ix2 p q))
      (broadcastInDim ⟨2, ![P, Q]⟩ ![] h0 (constant (F := Ideal) ⟨0, ![]⟩ .f32 0x00000000#32) (ix2 p q)) = _
  rw [Ideal.maximumf_def, PlainDot.dotGeneral_apply hd, PlainDot.dotGeneral_apply hd, PlainDot.dotGeneral_apply hd,
    broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q),
    broadcastInDim_apply ![] h0 _ (ix2 p q) ix0 (fun a => a.elim0)]
  rfl

/-- A length-Q vector reshaped to a [1, Q] row, read at (0, q), is the vector at q. -/
theorem reshape_row (b : (⟨1, ![Q]⟩ : Shape).Idx → EReal) (h : (⟨1, ![Q]⟩ : Shape).ShapeCasts ⟨2, ![1, Q]⟩) (q : Fin Q) :
    shapeCast ⟨2, ![1, Q]⟩ b h (ix2 (0 : Fin 1) q) = b (ix1 q) :=
  shapeCast_apply b h (ix2 (0 : Fin 1) q) (ix1 q) (by
    simp only [Shape.rowMajor_val_two, Shape.rowMajor_val_one]
    show q.val = 0 * Q + q.val
    omega)

end ChebLayer

end
-- ==== Proof.Stages.lean ====
/-
  The network both programs compute, stage by stage, as functions of the argument arrays over the extended reals.

  The graph has 20000 nodes and 320000 directed edges given as two rows of node numbers (row ends and column ends).
  With deg the number of edges at each row end and dinv = deg^(-1/2) where deg > 0 (0 elsewhere), every edge carries the
  weight w = −dinv[row]·dinv[col]; the scaled Laplacian applied to a node array z is
      (L̂ z)[n] = ∑ over edges with row end n of w · z[col end],
  a gather followed by an accumulating scatter.  A layer takes x to
      max( x·W0 + (L̂ x)·W1 + (2·L̂(L̂ x) − x)·W2 + b , 0 ),
  and the network is three layers, 86 → 128 → 256 → 512 channels, returning all three activations.
  The stages are spelt here with the host program's own operations and dimension records, so that the reference's
  composed terms are these functions by unfolding, and the dense stage is identified with the layer function
  (ChebLayer.cheb) once (`dense_k_eq`).
-/
import proofs.«154369_j43688407335391_1_alg».proof.ReferenceIdeal
import proofs.«154369_j43688407335391_1_alg».proof.Proof.Gen.ReferenceIdeal
import proofs.«154369_j43688407335391_1_alg».proof.Proof.LibChebLayer

noncomputable section

namespace Cert.ChebNet

open Cert.ReferenceIdeal Cert.ReferenceIdeal.Gen Idealize.ShloMosaic Idealize.ShloMosaic.TcCoe Idealize.ShloMosaic.ValueIdx

/-- The edge list: two rows of 320000 node numbers. -/
abbrev Edges := (⟨S2x320000, .i32⟩ : BufTy).Contents (Elt Ideal)
/-- One node number per edge. -/
abbrev EdgeInts := (⟨S320000, .i32⟩ : BufTy).Contents (Elt Ideal)
/-- The same as a column of start indices for a gather or a scatter. -/
abbrev EdgeCol := (⟨S320000x1, .i32⟩ : BufTy).Contents (Elt Ideal)

/-- The row ends of the edges. -/
def rowVec (e : Edges) : EdgeInts :=
  shapeCast _ (extractStridedSlice S1x320000 ![0, 0] e slices_S2x320000_S1x320000_0_0) shapeCasts_S1x320000_S320000

/-- The column ends of the edges. -/
def colVec (e : Edges) : EdgeInts :=
  shapeCast _ (extractStridedSlice S1x320000 ![1, 0] e slices_S2x320000_S1x320000_1_0) shapeCasts_S1x320000_S320000

/-- Node numbers as a gather's start indices: a negative number counts from the end (20000 is added to it). -/
def wrap (v : EdgeInts) : EdgeCol :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 20000#32))) v)

/-- The row ends as a scatter's start indices. -/
def rowIx (e : Edges) : EdgeCol := broadcastInDim S320000x1 ![0] bcast_S320000_S320000x1_0 (rowVec e)

/-- The number of edges at each row end. -/
def deg (e : Edges) : FVec Ideal S20000 .f32 :=
  Host.scatterAdd scatter_S20000_S320000x1_S320000_n_0_0_1
    (broadcastInDim S20000 ![] bcast_S_S20000 (constant (F := Ideal) S_ .f32 0x00000000#32))
    (rowIx e)
    (broadcastInDim S320000 ![] bcast_S_S320000 (constant (F := Ideal) S_ .f32 0x3F800000#32))

/-- deg^(-1/2) where deg > 0, zero elsewhere (the inverse square root is taken of max(deg, 1)). -/
def dinv (e : Edges) : FVec Ideal S20000 .f32 :=
  select (cmpf .ogt (deg e) (broadcastInDim S20000 ![] bcast_S_S20000 (constant (F := Ideal) S_ .f32 0x00000000#32)))
    (Host.rsqrt (maximumf (deg e) (broadcastInDim S20000 ![] bcast_S_S20000 (constant (F := Ideal) S_ .f32 0x3F800000#32))))
    (broadcastInDim S20000 ![] bcast_S_S20000 (id (constant (F := Ideal) S_ .f32 0x00000000#32)))

/-- The edge weights −dinv[row]·dinv[col]. -/
def edgeW (e : Edges) : FVec Ideal S320000 .f32 :=
  mulf (Host.negf (Host.gather gather_S20000_S320000x1_S320000_n_0_n_n_0_1_1 (dinv e) (wrap (rowVec e))))
    (Host.gather gather_S20000_S320000x1_S320000_n_0_n_n_0_1_1 (dinv e) (wrap (colVec e)))

/-- L̂ applied to a [20000, 86] array: gather the rows at the (wrapped) column ends of the edges, scale each by its
    edge weight, and add them up at the row ends of the edges (an out-of-range row end adds nothing). -/
def lhat86 (e : Edges) (z : FVec Ideal S20000x86 .f32) : FVec Ideal S20000x86 .f32 :=
  Host.scatterAdd scatter_S20000x86_S320000x1_S320000x86_1_0_0_1
    (broadcastInDim S20000x86 ![] bcast_S_S20000x86 (constant (F := Ideal) S_ .f32 0x00000000#32))
    (rowIx e)
    (mulf (broadcastInDim S320000x86 ![0, 1] bcast_S320000x1_S320000x86_0_1
        (broadcastInDim S320000x1 ![0] bcast_S320000_S320000x1_0 (edgeW e)))
      (Host.gather gather_S20000x86_S320000x1_S320000x86_1_0_n_n_0_1_186 z (wrap (colVec e))))

/-- The second Chebyshev term 2·L̂(L̂ x) − x of a [20000, 86] array. -/
def cheb2_86 (e : Edges) (x : FVec Ideal S20000x86 .f32) : FVec Ideal S20000x86 .f32 :=
  subf (mulf (broadcastInDim S20000x86 ![] bcast_S_S20000x86 (constant (F := Ideal) S_ .f32 0x40000000#32))
    (lhat86 e (lhat86 e x))) x

/-- L̂ applied to a [20000, 128] array: gather the rows at the (wrapped) column ends of the edges, scale each by its
    edge weight, and add them up at the row ends of the edges (an out-of-range row end adds nothing). -/
def lhat128 (e : Edges) (z : FVec Ideal S20000x128 .f32) : FVec Ideal S20000x128 .f32 :=
  Host.scatterAdd scatter_S20000x128_S320000x1_S320000x128_1_0_0_1
    (broadcastInDim S20000x128 ![] bcast_S_S20000x128 (constant (F := Ideal) S_ .f32 0x00000000#32))
    (rowIx e)
    (mulf (broadcastInDim S320000x128 ![0, 1] bcast_S320000x1_S320000x128_0_1
        (broadcastInDim S320000x1 ![0] bcast_S320000_S320000x1_0 (edgeW e)))
      (Host.gather gather_S20000x128_S320000x1_S320000x128_1_0_n_n_0_1_1128 z (wrap (colVec e))))

/-- The second Chebyshev term 2·L̂(L̂ x) − x of a [20000, 128] array. -/
def cheb2_128 (e : Edges) (x : FVec Ideal S20000x128 .f32) : FVec Ideal S20000x128 .f32 :=
  subf (mulf (broadcastInDim S20000x128 ![] bcast_S_S20000x128 (constant (F := Ideal) S_ .f32 0x40000000#32))
    (lhat128 e (lhat128 e x))) x

/-- L̂ applied to a [20000, 256] array: gather the rows at the (wrapped) column ends of the edges, scale each by its
    edge weight, and add them up at the row ends of the edges (an out-of-range row end adds nothing). -/
def lhat256 (e : Edges) (z : FVec Ideal S20000x256 .f32) : FVec Ideal S20000x256 .f32 :=
  Host.scatterAdd scatter_S20000x256_S320000x1_S320000x256_1_0_0_1
    (broadcastInDim S20000x256 ![] bcast_S_S20000x256 (constant (F := Ideal) S_ .f32 0x00000000#32))
    (rowIx e)
    (mulf (broadcastInDim S320000x256 ![0, 1] bcast_S320000x1_S320000x256_0_1
        (broadcastInDim S320000x1 ![0] bcast_S320000_S320000x1_0 (edgeW e)))
      (Host.gather gather_S20000x256_S320000x1_S320000x256_1_0_n_n_0_1_1256 z (wrap (colVec e))))

/-- The second Chebyshev term 2·L̂(L̂ x) − x of a [20000, 256] array. -/
def cheb2_256 (e : Edges) (x : FVec Ideal S20000x256 .f32) : FVec Ideal S20000x256 .f32 :=
  subf (mulf (broadcastInDim S20000x256 ![] bcast_S_S20000x256 (constant (F := Ideal) S_ .f32 0x40000000#32))
    (lhat256 e (lhat256 e x))) x

/-- The host's dense stage of layer 0 (86 → 128 channels): three dot products added left to right, the bias broadcast
    to a row and then to every row, the maximum with zero. -/
def dense0 (x z1 z2 : FVec Ideal S20000x86 .f32) (W0 W1 W2 : FVec Ideal S86x128 .f32) (b : FVec Ideal S128 .f32) :
    FVec Ideal S20000x128 .f32 :=
  maximumf (addf (addf (addf
      (Host.dotGeneral dot_S20000x86_S86x128_S20000x128_1_0_0_1_n_n none x W0)
      (Host.dotGeneral dot_S20000x86_S86x128_S20000x128_1_0_0_1_n_n none z1 W1))
      (Host.dotGeneral dot_S20000x86_S86x128_S20000x128_1_0_0_1_n_n none z2 W2))
      (broadcastInDim S20000x128 ![0, 1] bcast_S1x128_S20000x128_0_1 (broadcastInDim S1x128 ![1] bcast_S128_S1x128_1 b)))
    (broadcastInDim S20000x128 ![] bcast_S_S20000x128 (constant (F := Ideal) S_ .f32 0x00000000#32))

theorem plain0 : PlainDot.IsPlain (P := 20000) (K := 86) (Q := 128) dot_S20000x86_S86x128_S20000x128_1_0_0_1_n_n :=
  ⟨rfl, rfl, rfl, rfl, rfl, rfl⟩

/-- The host's dense stage is the layer function. -/
theorem dense0_eq (x z1 z2 : FVec Ideal S20000x86 .f32) (W0 W1 W2 : FVec Ideal S86x128 .f32) (b : FVec Ideal S128 .f32) :
    dense0 x z1 z2 W0 W1 W2 b = ChebLayer.cheb x z1 z2 W0 W1 W2 (fun q => b (ix1 q)) :=
  ChebLayer.host_cheb plain0 x z1 z2 W0 W1 W2 b bcast_S128_S1x128_1 bcast_S1x128_S20000x128_0_1 bcast_S_S20000x128

/-- Layer 0 of the network: the dense stage of x, L̂ x and 2·L̂(L̂ x) − x. -/
def layer0 (e : Edges) (x : FVec Ideal S20000x86 .f32) (W0 W1 W2 : FVec Ideal S86x128 .f32) (b : FVec Ideal S128 .f32) :
    FVec Ideal S20000x128 .f32 :=
  dense0 x (lhat86 e x) (cheb2_86 e x) W0 W1 W2 b

/-- The host's dense stage of layer 1 (128 → 256 channels): three dot products added left to right, the bias broadcast
    to a row and then to every row, the maximum with zero. -/
def dense1 (x z1 z2 : FVec Ideal S20000x128 .f32) (W0 W1 W2 : FVec Ideal S128x256 .f32) (b : FVec Ideal S256 .f32) :
    FVec Ideal S20000x256 .f32 :=
  maximumf (addf (addf (addf
      (Host.dotGeneral dot_S20000x128_S128x256_S20000x256_1_0_0_1_n_n none x W0)
      (Host.dotGeneral dot_S20000x128_S128x256_S20000x256_1_0_0_1_n_n none z1 W1))
      (Host.dotGeneral dot_S20000x128_S128x256_S20000x256_1_0_0_1_n_n none z2 W2))
      (broadcastInDim S20000x256 ![0, 1] bcast_S1x256_S20000x256_0_1 (broadcastInDim S1x256 ![1] bcast_S256_S1x256_1 b)))
    (broadcastInDim S20000x256 ![] bcast_S_S20000x256 (constant (F := Ideal) S_ .f32 0x00000000#32))

theorem plain1 : PlainDot.IsPlain (P := 20000) (K := 128) (Q := 256) dot_S20000x128_S128x256_S20000x256_1_0_0_1_n_n :=
  ⟨rfl, rfl, rfl, rfl, rfl, rfl⟩

/-- The host's dense stage is the layer function. -/
theorem dense1_eq (x z1 z2 : FVec Ideal S20000x128 .f32) (W0 W1 W2 : FVec Ideal S128x256 .f32) (b : FVec Ideal S256 .f32) :
    dense1 x z1 z2 W0 W1 W2 b = ChebLayer.cheb x z1 z2 W0 W1 W2 (fun q => b (ix1 q)) :=
  ChebLayer.host_cheb plain1 x z1 z2 W0 W1 W2 b bcast_S256_S1x256_1 bcast_S1x256_S20000x256_0_1 bcast_S_S20000x256

/-- Layer 1 of the network: the dense stage of x, L̂ x and 2·L̂(L̂ x) − x. -/
def layer1 (e : Edges) (x : FVec Ideal S20000x128 .f32) (W0 W1 W2 : FVec Ideal S128x256 .f32) (b : FVec Ideal S256 .f32) :
    FVec Ideal S20000x256 .f32 :=
  dense1 x (lhat128 e x) (cheb2_128 e x) W0 W1 W2 b

/-- The host's dense stage of layer 2 (256 → 512 channels): three dot products added left to right, the bias broadcast
    to a row and then to every row, the maximum with zero. -/
def dense2 (x z1 z2 : FVec Ideal S20000x256 .f32) (W0 W1 W2 : FVec Ideal S256x512 .f32) (b : FVec Ideal S512 .f32) :
    FVec Ideal S20000x512 .f32 :=
  maximumf (addf (addf (addf
      (Host.dotGeneral dot_S20000x256_S256x512_S20000x512_1_0_0_1_n_n none x W0)
      (Host.dotGeneral dot_S20000x256_S256x512_S20000x512_1_0_0_1_n_n none z1 W1))
      (Host.dotGeneral dot_S20000x256_S256x512_S20000x512_1_0_0_1_n_n none z2 W2))
      (broadcastInDim S20000x512 ![0, 1] bcast_S1x512_S20000x512_0_1 (broadcastInDim S1x512 ![1] bcast_S512_S1x512_1 b)))
    (broadcastInDim S20000x512 ![] bcast_S_S20000x512 (constant (F := Ideal) S_ .f32 0x00000000#32))

theorem plain2 : PlainDot.IsPlain (P := 20000) (K := 256) (Q := 512) dot_S20000x256_S256x512_S20000x512_1_0_0_1_n_n :=
  ⟨rfl, rfl, rfl, rfl, rfl, rfl⟩

/-- The host's dense stage is the layer function. -/
theorem dense2_eq (x z1 z2 : FVec Ideal S20000x256 .f32) (W0 W1 W2 : FVec Ideal S256x512 .f32) (b : FVec Ideal S512 .f32) :
    dense2 x z1 z2 W0 W1 W2 b = ChebLayer.cheb x z1 z2 W0 W1 W2 (fun q => b (ix1 q)) :=
  ChebLayer.host_cheb plain2 x z1 z2 W0 W1 W2 b bcast_S512_S1x512_1 bcast_S1x512_S20000x512_0_1 bcast_S_S20000x512

/-- Layer 2 of the network: the dense stage of x, L̂ x and 2·L̂(L̂ x) − x. -/
def layer2 (e : Edges) (x : FVec Ideal S20000x256 .f32) (W0 W1 W2 : FVec Ideal S256x512 .f32) (b : FVec Ideal S512 .f32) :
    FVec Ideal S20000x512 .f32 :=
  dense2 x (lhat256 e x) (cheb2_256 e x) W0 W1 W2 b

end Cert.ChebNet

end
-- ==== Proof.RefValue.lean ====
/-
  The reference program's three results are the three layers of the network.

  The reference's run ends with each result at the composed term of its host operations; unfolding the stage functions
  of Stages, the first result is layer 0 of the arguments, the second is layer 1 of the first, the third is layer 2 of
  the second (the same operations in the same order, so the equalities are by unfolding).
-/
import proofs.«154369_j43688407335391_1_alg».proof.Proof.RefRun
import proofs.«154369_j43688407335391_1_alg».proof.Proof.Stages

noncomputable section

namespace Cert.ReferenceIdeal.Net

open Cert.ReferenceIdeal Cert.ReferenceIdeal.Gen Idealize.ShloMosaic Idealize.ShloMosaic.TcCoe Idealize.SL.Sem
open Cert.ChebNet

variable (m : (ℓ : Loc nD τ sig) → Buf (Elt Ideal) ℓ) (c : Dev nD)

set_option maxRecDepth 16384 in
set_option maxHeartbeats 4000000 in
/-- The first result is layer 0 of the node features. -/
theorem out0_eq : Cert.ReferenceIdeal.ValueP.res_main_v67 (F := Ideal) m c
    = layer0 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v67
  rfl

set_option maxRecDepth 16384 in
set_option maxHeartbeats 8000000 in
/-- The second result is layer 1 of the first. -/
theorem out1_eq : Cert.ReferenceIdeal.ValueP.res_main_v105 (F := Ideal) m c
    = layer1 (m ((c.tc : Thread nD τ).loc main_arg1)) (Cert.ReferenceIdeal.ValueP.res_main_v67 (F := Ideal) m c) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v105 Cert.ReferenceIdeal.ValueP.res_main_v67
  rfl

set_option maxRecDepth 16384 in
set_option maxHeartbeats 16000000 in
/-- The third result is layer 2 of the second. -/
theorem out2_eq : Cert.ReferenceIdeal.ValueP.res_main_v143 (F := Ideal) m c
    = layer2 (m ((c.tc : Thread nD τ).loc main_arg1)) (Cert.ReferenceIdeal.ValueP.res_main_v105 (F := Ideal) m c) (m ((c.tc : Thread nD τ).loc main_arg10)) (m ((c.tc : Thread nD τ).loc main_arg11)) (m ((c.tc : Thread nD τ).loc main_arg12)) (m ((c.tc : Thread nD τ).loc main_arg13)) := by
  unfold Cert.ReferenceIdeal.ValueP.res_main_v143 Cert.ReferenceIdeal.ValueP.res_main_v105
  rfl

end Cert.ReferenceIdeal.Net

end
-- ==== Proof.KernelRun.lean ====
/-
  The kernel program's run, read at its last boundary.

  @main is five stretches of host operations and three kernel regions; the contents of every buffer at each boundary
  are a fold from the launch memory (W0 … W8 of the generated frame: a stretch applies its operations, a region replaces
  its own arrays by what its write-backs leave).  The regions kit runs the segments one after another; its conclusion,
  taken here with nothing thrown away, is that every weakly fair execution terminates with EVERY unscoped buffer at the
  last boundary's contents W8 (`run_all`).  The three result arrays and the fourteen argument arrays are such buffers
  (`run_fold`); what W8 holds at the results is read back in KernelValue.
-/
import proofs.«154369_j43688407335391_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents: the regions kit over the generated segments, its final thread state read against the
    final memory and kept whole. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The same for the buffers the claims speak of: each result array ends at W8's contents, each argument array as
    launched (no stretch and no region writes an argument). -/
theorem run_fold : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_v91) = W8 m ρ c (Proc.devRef .tc main_v91)
      ∧ r.2.mem ((c.tc : Thread nD τ).loc main_v122) = W8 m ρ c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v60 (by decide)),
       h c _ (mem_uc main_v91 (by decide)),
       h c _ (mem_uc main_v122 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)
    (run_all m ρ)

end Cert.KernelIdeal.Fold

end
-- ==== Proof.Dense0.lean ====
/-
  Region 0 of the kernel's @main (one Chebyshev layer's dense stage, 86 → 128 channels), from blocks to the whole array.

  The region walks ten grid points; point t stages rows 2000·t … 2000·t + 1999 of the three [20000, 86] feature arrays
  (the node features and their first and second Chebyshev terms), the three whole [86, 128] weight arrays and the whole
  [1, 128] bias row, and writes back rows 2000·t … 2000·t + 1999 of the [20000, 128] result.  Entry (p, q) of the layer reads
  row p of the features only, so what point t writes back IS block t of the layer applied to the whole arrays; the ten
  blocks tile the result, so after the run the result array is the layer of the arrays the region finds, whatever they
  are (the parameter V below).
-/
import proofs.«154369_j43688407335391_1_alg».proof.Proof.Gen.KernelIdeal.Frame
import proofs.«154369_j43688407335391_1_alg».proof.Proof.LibChebLayer
import Idealize.ShloMosaic.Lib.Pipeline.Value

set_option maxRecDepth 16384

noncomputable section

namespace Cert.KernelIdeal.Dense0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's matrix products are plain: rows × contraction times contraction × columns. -/
theorem plain : PlainDot.IsPlain (P := 2000) (K := 86) (Q := 128) dot_S2000x86_S86x128_S2000x128_1_0_0_1_n_n :=
  ⟨rfl, rfl, rfl, rfl, rfl, rfl⟩

/-- The layer over whole arrays: features a0 a1 a2, weights a3 a4 a5, the bias as a [1, 128] row a6. -/
abbrev G (a0 a1 a2 : S20000x86.Idx → Elt Ideal .f32) (a3 a4 a5 : S86x128.Idx → Elt Ideal .f32) (a6 : S1x128.Idx → Elt Ideal .f32) :
    S20000x128.Idx → Elt Ideal .f32 :=
  ChebLayer.cheb a0 a1 a2 a3 a4 a5 (fun q => a6 (ix2 (0 : Fin 1) q))

/-- The body's one stored value is the layer of its loaded blocks. -/
theorem pay_eq (x0 x1 x2 : Vec Ideal S2000x86 .f32) (x3 x4 x5 : Vec Ideal S86x128 .f32) (x6 : Vec Ideal S1x128 .f32) :
    k0_pay1 x0 x1 x2 x3 x4 x5 x6 = ChebLayer.cheb x0 x1 x2 x3 x4 x5 (fun q => x6 (ix2 (0 : Fin 1) q)) := by
  unfold k0_pay1
  exact ChebLayer.kernel_cheb plain x0 x1 x2 x3 x4 x5 x6 bitsLt_bf16_f32 shapeCasts_S2000x86_S2000x86
    shapeCasts_S1x128_S1x128 broadcasts_S1x128_S2000x128

/-- The printed index maps, decided over the ten grid points: the three feature windows move with the output window
    along the rows and sit at column block 0; the weight and bias windows stay at block (0, 0). -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 9 :=
  (by decide +kernel : ∀ t : Fin grid0.N, _)

/-- Every row block of the result is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

set_option maxHeartbeats 1600000 in
/-- WHAT POINT t WRITES BACK is block t of the layer of the whole arrays as the region finds them. -/
theorem flushed_eq (c : Dev nD) (t : Fin cfg0.N) :
    (dat0 V c).flushed 7 t = ((cfg0.win 7).blk t).view.read (Elt Ideal)
      (G (V c main_arg0) (V c main_v42) (V c main_v58) (V c main_arg2) (V c main_arg3) (V c main_arg4) (V c main_v59)) := by
  show (cfg0.win 7).cut (grid0.coords t) ((dat0 V c).after 7 t) = _
  rw [after0_7]
  unfold out0_7
  rw [View.canon_unit_zero hz]
  simp only [View.ld_unit_zero (S := S2000x86) hz, View.ld_unit_zero (S := S86x128) hz, View.ld_unit_zero (S := S1x128) hz]
  rw [pay_eq]
  obtain ⟨e00, e01, e10, e11, e20, e21, e30, e31, e40, e41, e50, e51, e60, e61, e71, e7b⟩ := idx_facts t
  funext j
  have hj0 : (j 0).val < 2000 := (j 0).isLt
  have hj1 : (j 1).val < 128 := (j 1).isLt
  refine ChebLayer.cheb_congr_idx (P := 2000) (P' := 20000) (K := 86) (Q := 128)
    (x := iblk0 V c 0 t) (z1 := iblk0 V c 1 t) (z2 := iblk0 V c 2 t)
    (x' := V c main_arg0) (z1' := V c main_v42) (z2' := V c main_v58)
    (W0 := iblk0 V c 3 t) (W1 := iblk0 V c 4 t) (W2 := iblk0 V c 5 t)
    (W0' := V c main_arg2) (W1' := V c main_arg3) (W2' := V c main_arg4)
    (b := fun q => iblk0 V c 6 t (ix2 (0 : Fin 1) q)) (b' := fun q => V c main_v59 (ix2 (0 : Fin 1) q))
    j (((cfg0.win 7).blk t).view.emb j)
    (fun k => ?_) (fun k => ?_) (fun k => ?_) (fun k => ?_) (fun k => ?_) (fun k => ?_) ?_
  · show V c main_arg0 (((cfg0.win 0).blk t).view.emb (ix2 (j 0) k)) = V c main_arg0 (ix2 ((((cfg0.win 7).blk t).view.emb j) 0) k)
    refine congrArg _ (funext fun a => Fin.ext ?_)
    match a with
    | ⟨0, _⟩ => show win0_0.index t (0 : Fin 2) * 2000 + 1 * (j 0).val = win0_7.index t (0 : Fin 2) * 2000 + 1 * (j 0).val; omega
    | ⟨1, _⟩ => show win0_0.index t (1 : Fin 2) * 86 + 1 * k.val = k.val; omega
  · show V c main_v42 (((cfg0.win 1).blk t).view.emb (ix2 (j 0) k)) = V c main_v42 (ix2 ((((cfg0.win 7).blk t).view.emb j) 0) k)
    refine congrArg _ (funext fun a => Fin.ext ?_)
    match a with
    | ⟨0, _⟩ => show win0_1.index t (0 : Fin 2) * 2000 + 1 * (j 0).val = win0_7.index t (0 : Fin 2) * 2000 + 1 * (j 0).val; omega
    | ⟨1, _⟩ => show win0_1.index t (1 : Fin 2) * 86 + 1 * k.val = k.val; omega
  · show V c main_v58 (((cfg0.win 2).blk t).view.emb (ix2 (j 0) k)) = V c main_v58 (ix2 ((((cfg0.win 7).blk t).view.emb j) 0) k)
    refine congrArg _ (funext fun a => Fin.ext ?_)
    match a with
    | ⟨0, _⟩ => show win0_2.index t (0 : Fin 2) * 2000 + 1 * (j 0).val = win0_7.index t (0 : Fin 2) * 2000 + 1 * (j 0).val; omega
    | ⟨1, _⟩ => show win0_2.index t (1 : Fin 2) * 86 + 1 * k.val = k.val; omega
  · show V c main_arg2 (((cfg0.win 3).blk t).view.emb (ix2 k (j 1))) = V c main_arg2 (ix2 k ((((cfg0.win 7).blk t).view.emb j) 1))
    refine congrArg _ (funext fun a => Fin.ext ?_)
    match a with
    | ⟨0, _⟩ => show win0_3.index t (0 : Fin 2) * 86 + 1 * k.val = k.val; omega
    | ⟨1, _⟩ => show win0_3.index t (1 : Fin 2) * 128 + 1 * (j 1).val = win0_7.index t (1 : Fin 2) * 128 + 1 * (j 1).val; omega
  · show V c main_arg3 (((cfg0.win 4).blk t).view.emb (ix2 k (j 1))) = V c main_arg3 (ix2 k ((((cfg0.win 7).blk t).view.emb j) 1))
    refine congrArg _ (funext fun a => Fin.ext ?_)
    match a with
    | ⟨0, _⟩ => show win0_4.index t (0 : Fin 2) * 86 + 1 * k.val = k.val; omega
    | ⟨1, _⟩ => show win0_4.index t (1 : Fin 2) * 128 + 1 * (j 1).val = win0_7.index t (1 : Fin 2) * 128 + 1 * (j 1).val; omega
  · show V c main_arg4 (((cfg0.win 5).blk t).view.emb (ix2 k (j 1))) = V c main_arg4 (ix2 k ((((cfg0.win 7).blk t).view.emb j) 1))
    refine congrArg _ (funext fun a => Fin.ext ?_)
    match a with
    | ⟨0, _⟩ => show win0_5.index t (0 : Fin 2) * 86 + 1 * k.val = k.val; omega
    | ⟨1, _⟩ => show win0_5.index t (1 : Fin 2) * 128 + 1 * (j 1).val = win0_7.index t (1 : Fin 2) * 128 + 1 * (j 1).val; omega
  · show V c main_v59 (((cfg0.win 6).blk t).view.emb (ix2 (0 : Fin 1) (j 1))) = V c main_v59 (ix2 (0 : Fin 1) ((((cfg0.win 7).blk t).view.emb j) 1))
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * (j 1).val = win0_7.index t (1 : Fin 2) * 128 + 1 * (j 1).val; omega

/-- An index of the result is in point t's block iff each coordinate is in the block's range on its axis. -/
theorem mem_blk (t : Fin cfg0.N) (i : S20000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v60).slice (win0_7.rect t)).set ↔ _
  rw [View.set_slice_whole, Rect.mem_set_unit]
  exact Iff.rfl

/-- The ten row blocks tile the result: row r is in the block of the point whose block index is r / 2000. -/
theorem cover (i : S20000x128.Idx) : ∃ t : Fin cfg0.N, (cfg0.win 7).flush t = true ∧ i ∈ ((cfg0.win 7).blk t).view.set := by
  have hi0 : (i 0).val < 20000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- THE RESULT ARRAY after the region: the layer of the arrays the region finds. -/
theorem final (c : Dev nD) :
    (dat0 V c).arrAt 7 cfg0.N = G (V c main_arg0) (V c main_v42) (V c main_v58) (V c main_arg2) (V c main_arg3) (V c main_arg4) (V c main_v59) :=
  (dat0 V c).arrAt_eq_of_cover 7 _ (fun t _ => flushed_eq V c t) (cover)

end Cert.KernelIdeal.Dense0

end
-- ==== Proof.Dense1.lean ====
/-
  Region 1 of the kernel's @main (one Chebyshev layer's dense stage, 128 → 256 channels), from blocks to the whole array.

  The region walks ten grid points; point t stages rows 2000·t … 2000·t + 1999 of the three [20000, 128] feature arrays
  (the node features and their first and second Chebyshev terms), the three whole [128, 256] weight arrays and the whole
  [1, 256] bias row, and writes back rows 2000·t … 2000·t + 1999 of the [20000, 256] result.  Entry (p, q) of the layer reads
  row p of the features only, so what point t writes back IS block t of the layer applied to the whole arrays; the ten
  blocks tile the result, so after the run the result array is the layer of the arrays the region finds, whatever they
  are (the parameter V below).
-/
import proofs.«154369_j43688407335391_1_alg».proof.Proof.Gen.KernelIdeal.Frame
import proofs.«154369_j43688407335391_1_alg».proof.Proof.LibChebLayer
import Idealize.ShloMosaic.Lib.Pipeline.Value

set_option maxRecDepth 16384

noncomputable section

namespace Cert.KernelIdeal.Dense1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's matrix products are plain: rows × contraction times contraction × columns. -/
theorem plain : PlainDot.IsPlain (P := 2000) (K := 128) (Q := 256) dot_S2000x128_S128x256_S2000x256_1_0_0_1_n_n :=
  ⟨rfl, rfl, rfl, rfl, rfl, rfl⟩

/-- The layer over whole arrays: features a0 a1 a2, weights a3 a4 a5, the bias as a [1, 256] row a6. -/
abbrev G (a0 a1 a2 : S20000x128.Idx → Elt Ideal .f32) (a3 a4 a5 : S128x256.Idx → Elt Ideal .f32) (a6 : S1x256.Idx → Elt Ideal .f32) :
    S20000x256.Idx → Elt Ideal .f32 :=
  ChebLayer.cheb a0 a1 a2 a3 a4 a5 (fun q => a6 (ix2 (0 : Fin 1) q))

/-- The body's one stored value is the layer of its loaded blocks. -/
theorem pay_eq (x0 x1 x2 : Vec Ideal S2000x128 .f32) (x3 x4 x5 : Vec Ideal S128x256 .f32) (x6 : Vec Ideal S1x256 .f32) :
    k1_pay1 x0 x1 x2 x3 x4 x5 x6 = ChebLayer.cheb x0 x1 x2 x3 x4 x5 (fun q => x6 (ix2 (0 : Fin 1) q)) := by
  unfold k1_pay1
  exact ChebLayer.kernel_cheb_cast plain x0 x1 x2 x3 x4 x5 x6 bitsLt_bf16_f32 shapeCasts_S2000x128_S2000x128
    shapeCasts_S1x256_S1x256 broadcasts_S1x256_S2000x256

/-- The printed index maps, decided over the ten grid points: the three feature windows move with the output window
    along the rows and sit at column block 0; the weight and bias windows stay at block (0, 0). -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 9 :=
  (by decide +kernel : ∀ t : Fin grid1.N, _)

/-- Every row block of the result is some point's. -/
theorem idx_onto : ∀ q0 : Fin 10, ∃ t : Fin cfg1.N, win1_7.index t = ![q0.val, 0] :=
  (by decide +kernel : ∀ q0 : Fin 10, ∃ t : Fin grid1.N, win1_7.index t = ![q0.val, 0])

set_option maxHeartbeats 3200000 in
/-- WHAT POINT t WRITES BACK is block t of the layer of the whole arrays as the region finds them. -/
theorem flushed_eq (c : Dev nD) (t : Fin cfg1.N) :
    (dat1 V c).flushed 7 t = ((cfg1.win 7).blk t).view.read (Elt Ideal)
      (G (V c main_v60) (V c main_v73) (V c main_v89) (V c main_arg6) (V c main_arg7) (V c main_arg8) (V c main_v90)) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x256) hz, View.ld_unit_zero (S := S1x256) hz]
  rw [pay_eq]
  obtain ⟨e00, e01, e10, e11, e20, e21, e30, e31, e40, e41, e50, e51, e60, e61, e71, e7b⟩ := idx_facts t
  funext j
  have hj0 : (j 0).val < 2000 := (j 0).isLt
  have hj1 : (j 1).val < 256 := (j 1).isLt
  refine ChebLayer.cheb_congr_idx (P := 2000) (P' := 20000) (K := 128) (Q := 256)
    (x := iblk1 V c 0 t) (z1 := iblk1 V c 1 t) (z2 := iblk1 V c 2 t)
    (x' := V c main_v60) (z1' := V c main_v73) (z2' := V c main_v89)
    (W0 := iblk1 V c 3 t) (W1 := iblk1 V c 4 t) (W2 := iblk1 V c 5 t)
    (W0' := V c main_arg6) (W1' := V c main_arg7) (W2' := V c main_arg8)
    (b := fun q => iblk1 V c 6 t (ix2 (0 : Fin 1) q)) (b' := fun q => V c main_v90 (ix2 (0 : Fin 1) q))
    j (((cfg1.win 7).blk t).view.emb j)
    (fun k => ?_) (fun k => ?_) (fun k => ?_) (fun k => ?_) (fun k => ?_) (fun k => ?_) ?_
  · show V c main_v60 (((cfg1.win 0).blk t).view.emb (ix2 (j 0) k)) = V c main_v60 (ix2 ((((cfg1.win 7).blk t).view.emb j) 0) k)
    refine congrArg _ (funext fun a => Fin.ext ?_)
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * k.val = k.val; omega
  · show V c main_v73 (((cfg1.win 1).blk t).view.emb (ix2 (j 0) k)) = V c main_v73 (ix2 ((((cfg1.win 7).blk t).view.emb j) 0) k)
    refine congrArg _ (funext fun a => Fin.ext ?_)
    match a with
    | ⟨0, _⟩ => show win1_1.index t (0 : Fin 2) * 2000 + 1 * (j 0).val = win1_7.index t (0 : Fin 2) * 2000 + 1 * (j 0).val; omega
    | ⟨1, _⟩ => show win1_1.index t (1 : Fin 2) * 128 + 1 * k.val = k.val; omega
  · show V c main_v89 (((cfg1.win 2).blk t).view.emb (ix2 (j 0) k)) = V c main_v89 (ix2 ((((cfg1.win 7).blk t).view.emb j) 0) k)
    refine congrArg _ (funext fun a => Fin.ext ?_)
    match a with
    | ⟨0, _⟩ => show win1_2.index t (0 : Fin 2) * 2000 + 1 * (j 0).val = win1_7.index t (0 : Fin 2) * 2000 + 1 * (j 0).val; omega
    | ⟨1, _⟩ => show win1_2.index t (1 : Fin 2) * 128 + 1 * k.val = k.val; omega
  · show V c main_arg6 (((cfg1.win 3).blk t).view.emb (ix2 k (j 1))) = V c main_arg6 (ix2 k ((((cfg1.win 7).blk t).view.emb j) 1))
    refine congrArg _ (funext fun a => Fin.ext ?_)
    match a with
    | ⟨0, _⟩ => show win1_3.index t (0 : Fin 2) * 128 + 1 * k.val = k.val; omega
    | ⟨1, _⟩ => show win1_3.index t (1 : Fin 2) * 256 + 1 * (j 1).val = win1_7.index t (1 : Fin 2) * 256 + 1 * (j 1).val; omega
  · show V c main_arg7 (((cfg1.win 4).blk t).view.emb (ix2 k (j 1))) = V c main_arg7 (ix2 k ((((cfg1.win 7).blk t).view.emb j) 1))
    refine congrArg _ (funext fun a => Fin.ext ?_)
    match a with
    | ⟨0, _⟩ => show win1_4.index t (0 : Fin 2) * 128 + 1 * k.val = k.val; omega
    | ⟨1, _⟩ => show win1_4.index t (1 : Fin 2) * 256 + 1 * (j 1).val = win1_7.index t (1 : Fin 2) * 256 + 1 * (j 1).val; omega
  · show V c main_arg8 (((cfg1.win 5).blk t).view.emb (ix2 k (j 1))) = V c main_arg8 (ix2 k ((((cfg1.win 7).blk t).view.emb j) 1))
    refine congrArg _ (funext fun a => Fin.ext ?_)
    match a with
    | ⟨0, _⟩ => show win1_5.index t (0 : Fin 2) * 128 + 1 * k.val = k.val; omega
    | ⟨1, _⟩ => show win1_5.index t (1 : Fin 2) * 256 + 1 * (j 1).val = win1_7.index t (1 : Fin 2) * 256 + 1 * (j 1).val; omega
  · show V c main_v90 (((cfg1.win 6).blk t).view.emb (ix2 (0 : Fin 1) (j 1))) = V c main_v90 (ix2 (0 : Fin 1) ((((cfg1.win 7).blk t).view.emb j) 1))
    refine congrArg _ (funext fun a => Fin.ext ?_)
    match a with
    | ⟨0, _⟩ => show win1_6.index t (0 : Fin 2) * 1 + 1 * 0 = 0; omega
    | ⟨1, _⟩ => show win1_6.index t (1 : Fin 2) * 256 + 1 * (j 1).val = win1_7.index t (1 : Fin 2) * 256 + 1 * (j 1).val; omega

/-- An index of the result is in point t's block iff each coordinate is in the block's range on its axis. -/
theorem mem_blk (t : Fin cfg1.N) (i : S20000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v91).slice (win1_7.rect t)).set ↔ _
  rw [View.set_slice_whole, Rect.mem_set_unit]
  exact Iff.rfl

/-- The ten row blocks tile the result: row r is in the block of the point whose block index is r / 2000. -/
theorem cover (i : S20000x256.Idx) : ∃ t : Fin cfg1.N, (cfg1.win 7).flush t = true ∧ i ∈ ((cfg1.win 7).blk t).view.set := by
  have hi0 : (i 0).val < 20000 := (i 0).isLt
  have hi1 : (i 1).val < 256 := (i 1).isLt
  obtain ⟨t, ht⟩ := idx_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 256 ≤ (i 1).val ∧ (i 1).val < win1_7.index t (1 : Fin 2) * 256 + 256; omega

/-- THE RESULT ARRAY after the region: the layer of the arrays the region finds. -/
theorem final (c : Dev nD) :
    (dat1 V c).arrAt 7 cfg1.N = G (V c main_v60) (V c main_v73) (V c main_v89) (V c main_arg6) (V c main_arg7) (V c main_arg8) (V c main_v90) :=
  (dat1 V c).arrAt_eq_of_cover 7 _ (fun t _ => flushed_eq V c t) (cover)

end Cert.KernelIdeal.Dense1

end
-- ==== Proof.Dense2.lean ====
/-
  Region 2 of the kernel's @main (one Chebyshev layer's dense stage, 256 → 512 channels), from blocks to the whole array.

  The region walks ten grid points; point t stages rows 2000·t … 2000·t + 1999 of the three [20000, 256] feature arrays
  (the node features and their first and second Chebyshev terms), the three whole [256, 512] weight arrays and the whole
  [1, 512] bias row, and writes back rows 2000·t … 2000·t + 1999 of the [20000, 512] result.  Entry (p, q) of the layer reads
  row p of the features only, so what point t writes back IS block t of the layer applied to the whole arrays; the ten
  blocks tile the result, so after the run the result array is the layer of the arrays the region finds, whatever they
  are (the parameter V below).
-/
import proofs.«154369_j43688407335391_1_alg».proof.Proof.Gen.KernelIdeal.Frame
import proofs.«154369_j43688407335391_1_alg».proof.Proof.LibChebLayer
import Idealize.ShloMosaic.Lib.Pipeline.Value

set_option maxRecDepth 16384

noncomputable section

namespace Cert.KernelIdeal.Dense2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's matrix products are plain: rows × contraction times contraction × columns. -/
theorem plain : PlainDot.IsPlain (P := 2000) (K := 256) (Q := 512) dot_S2000x256_S256x512_S2000x512_1_0_0_1_n_n :=
  ⟨rfl, rfl, rfl, rfl, rfl, rfl⟩

/-- The layer over whole arrays: features a0 a1 a2, weights a3 a4 a5, the bias as a [1, 512] row a6. -/
abbrev G (a0 a1 a2 : S20000x256.Idx → Elt Ideal .f32) (a3 a4 a5 : S256x512.Idx → Elt Ideal .f32) (a6 : S1x512.Idx → Elt Ideal .f32) :
    S20000x512.Idx → Elt Ideal .f32 :=
  ChebLayer.cheb a0 a1 a2 a3 a4 a5 (fun q => a6 (ix2 (0 : Fin 1) q))

/-- The body's one stored value is the layer of its loaded blocks. -/
theorem pay_eq (x0 x1 x2 : Vec Ideal S2000x256 .f32) (x3 x4 x5 : Vec Ideal S256x512 .f32) (x6 : Vec Ideal S1x512 .f32) :
    k2_pay1 x0 x1 x2 x3 x4 x5 x6 = ChebLayer.cheb x0 x1 x2 x3 x4 x5 (fun q => x6 (ix2 (0 : Fin 1) q)) := by
  unfold k2_pay1
  exact ChebLayer.kernel_cheb_cast plain x0 x1 x2 x3 x4 x5 x6 bitsLt_bf16_f32 shapeCasts_S2000x256_S2000x256
    shapeCasts_S1x512_S1x512 broadcasts_S1x512_S2000x512

/-- The printed index maps, decided over the ten grid points: the three feature windows move with the output window
    along the rows and sit at column block 0; the weight and bias windows stay at block (0, 0). -/
theorem idx_facts : ∀ t : Fin cfg2.N,
    win2_0.index t (0 : Fin 2) = win2_7.index t (0 : Fin 2) ∧ win2_0.index t (1 : Fin 2) = 0
    ∧ win2_1.index t (0 : Fin 2) = win2_7.index t (0 : Fin 2) ∧ win2_1.index t (1 : Fin 2) = 0
    ∧ win2_2.index t (0 : Fin 2) = win2_7.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (1 : Fin 2) = 0 ∧ win2_7.index t (0 : Fin 2) ≤ 9 :=
  (by decide +kernel : ∀ t : Fin grid2.N, _)

/-- Every row block of the result is some point's. -/
theorem idx_onto : ∀ q0 : Fin 10, ∃ t : Fin cfg2.N, win2_7.index t = ![q0.val, 0] :=
  (by decide +kernel : ∀ q0 : Fin 10, ∃ t : Fin grid2.N, win2_7.index t = ![q0.val, 0])

set_option maxHeartbeats 3200000 in
/-- WHAT POINT t WRITES BACK is block t of the layer of the whole arrays as the region finds them. -/
theorem flushed_eq (c : Dev nD) (t : Fin cfg2.N) :
    (dat2 V c).flushed 7 t = ((cfg2.win 7).blk t).view.read (Elt Ideal)
      (G (V c main_v91) (V c main_v104) (V c main_v120) (V c main_arg10) (V c main_arg11) (V c main_arg12) (V c main_v121)) := by
  show (cfg2.win 7).cut (grid2.coords t) ((dat2 V c).after 7 t) = _
  rw [after2_7]
  unfold out2_7
  rw [View.canon_unit_zero hz]
  simp only [View.ld_unit_zero (S := S2000x256) hz, View.ld_unit_zero (S := S256x512) hz, View.ld_unit_zero (S := S1x512) hz]
  rw [pay_eq]
  obtain ⟨e00, e01, e10, e11, e20, e21, e30, e31, e40, e41, e50, e51, e60, e61, e71, e7b⟩ := idx_facts t
  funext j
  have hj0 : (j 0).val < 2000 := (j 0).isLt
  have hj1 : (j 1).val < 512 := (j 1).isLt
  refine ChebLayer.cheb_congr_idx (P := 2000) (P' := 20000) (K := 256) (Q := 512)
    (x := iblk2 V c 0 t) (z1 := iblk2 V c 1 t) (z2 := iblk2 V c 2 t)
    (x' := V c main_v91) (z1' := V c main_v104) (z2' := V c main_v120)
    (W0 := iblk2 V c 3 t) (W1 := iblk2 V c 4 t) (W2 := iblk2 V c 5 t)
    (W0' := V c main_arg10) (W1' := V c main_arg11) (W2' := V c main_arg12)
    (b := fun q => iblk2 V c 6 t (ix2 (0 : Fin 1) q)) (b' := fun q => V c main_v121 (ix2 (0 : Fin 1) q))
    j (((cfg2.win 7).blk t).view.emb j)
    (fun k => ?_) (fun k => ?_) (fun k => ?_) (fun k => ?_) (fun k => ?_) (fun k => ?_) ?_
  · show V c main_v91 (((cfg2.win 0).blk t).view.emb (ix2 (j 0) k)) = V c main_v91 (ix2 ((((cfg2.win 7).blk t).view.emb j) 0) k)
    refine congrArg _ (funext fun a => Fin.ext ?_)
    match a with
    | ⟨0, _⟩ => show win2_0.index t (0 : Fin 2) * 2000 + 1 * (j 0).val = win2_7.index t (0 : Fin 2) * 2000 + 1 * (j 0).val; omega
    | ⟨1, _⟩ => show win2_0.index t (1 : Fin 2) * 256 + 1 * k.val = k.val; omega
  · show V c main_v104 (((cfg2.win 1).blk t).view.emb (ix2 (j 0) k)) = V c main_v104 (ix2 ((((cfg2.win 7).blk t).view.emb j) 0) k)
    refine congrArg _ (funext fun a => Fin.ext ?_)
    match a with
    | ⟨0, _⟩ => show win2_1.index t (0 : Fin 2) * 2000 + 1 * (j 0).val = win2_7.index t (0 : Fin 2) * 2000 + 1 * (j 0).val; omega
    | ⟨1, _⟩ => show win2_1.index t (1 : Fin 2) * 256 + 1 * k.val = k.val; omega
  · show V c main_v120 (((cfg2.win 2).blk t).view.emb (ix2 (j 0) k)) = V c main_v120 (ix2 ((((cfg2.win 7).blk t).view.emb j) 0) k)
    refine congrArg _ (funext fun a => Fin.ext ?_)
    match a with
    | ⟨0, _⟩ => show win2_2.index t (0 : Fin 2) * 2000 + 1 * (j 0).val = win2_7.index t (0 : Fin 2) * 2000 + 1 * (j 0).val; omega
    | ⟨1, _⟩ => show win2_2.index t (1 : Fin 2) * 256 + 1 * k.val = k.val; omega
  · show V c main_arg10 (((cfg2.win 3).blk t).view.emb (ix2 k (j 1))) = V c main_arg10 (ix2 k ((((cfg2.win 7).blk t).view.emb j) 1))
    refine congrArg _ (funext fun a => Fin.ext ?_)
    match a with
    | ⟨0, _⟩ => show win2_3.index t (0 : Fin 2) * 256 + 1 * k.val = k.val; omega
    | ⟨1, _⟩ => show win2_3.index t (1 : Fin 2) * 512 + 1 * (j 1).val = win2_7.index t (1 : Fin 2) * 512 + 1 * (j 1).val; omega
  · show V c main_arg11 (((cfg2.win 4).blk t).view.emb (ix2 k (j 1))) = V c main_arg11 (ix2 k ((((cfg2.win 7).blk t).view.emb j) 1))
    refine congrArg _ (funext fun a => Fin.ext ?_)
    match a with
    | ⟨0, _⟩ => show win2_4.index t (0 : Fin 2) * 256 + 1 * k.val = k.val; omega
    | ⟨1, _⟩ => show win2_4.index t (1 : Fin 2) * 512 + 1 * (j 1).val = win2_7.index t (1 : Fin 2) * 512 + 1 * (j 1).val; omega
  · show V c main_arg12 (((cfg2.win 5).blk t).view.emb (ix2 k (j 1))) = V c main_arg12 (ix2 k ((((cfg2.win 7).blk t).view.emb j) 1))
    refine congrArg _ (funext fun a => Fin.ext ?_)
    match a with
    | ⟨0, _⟩ => show win2_5.index t (0 : Fin 2) * 256 + 1 * k.val = k.val; omega
    | ⟨1, _⟩ => show win2_5.index t (1 : Fin 2) * 512 + 1 * (j 1).val = win2_7.index t (1 : Fin 2) * 512 + 1 * (j 1).val; omega
  · show V c main_v121 (((cfg2.win 6).blk t).view.emb (ix2 (0 : Fin 1) (j 1))) = V c main_v121 (ix2 (0 : Fin 1) ((((cfg2.win 7).blk t).view.emb j) 1))
    refine congrArg _ (funext fun a => Fin.ext ?_)
    match a with
    | ⟨0, _⟩ => show win2_6.index t (0 : Fin 2) * 1 + 1 * 0 = 0; omega
    | ⟨1, _⟩ => show win2_6.index t (1 : Fin 2) * 512 + 1 * (j 1).val = win2_7.index t (1 : Fin 2) * 512 + 1 * (j 1).val; omega

/-- An index of the result is in point t's block iff each coordinate is in the block's range on its axis. -/
theorem mem_blk (t : Fin cfg2.N) (i : S20000x512.Idx) :
    i ∈ ((cfg2.win 7).blk t).view.set ↔ ∀ a : Fin 2, win2_7.index t a * S2000x512.size a ≤ (i a).val ∧ (i a).val < win2_7.index t a * S2000x512.size a + S2000x512.size a := by
  show i ∈ ((View.whole main_v122).slice (win2_7.rect t)).set ↔ _
  rw [View.set_slice_whole, Rect.mem_set_unit]
  exact Iff.rfl

/-- The ten row blocks tile the result: row r is in the block of the point whose block index is r / 2000. -/
theorem cover (i : S20000x512.Idx) : ∃ t : Fin cfg2.N, (cfg2.win 7).flush t = true ∧ i ∈ ((cfg2.win 7).blk t).view.set := by
  have hi0 : (i 0).val < 20000 := (i 0).isLt
  have hi1 : (i 1).val < 512 := (i 1).isLt
  obtain ⟨t, ht⟩ := idx_onto ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 512 ≤ (i 1).val ∧ (i 1).val < win2_7.index t (1 : Fin 2) * 512 + 512; omega

/-- THE RESULT ARRAY after the region: the layer of the arrays the region finds. -/
theorem final (c : Dev nD) :
    (dat2 V c).arrAt 7 cfg2.N = G (V c main_v91) (V c main_v104) (V c main_v120) (V c main_arg10) (V c main_arg11) (V c main_arg12) (V c main_v121) :=
  (dat2 V c).arrAt_eq_of_cover 7 _ (fun t _ => flushed_eq V c t) (cover)

end Cert.KernelIdeal.Dense2

end
-- ==== Proof.KernelValue.lean ====
/-
  What the kernel program's buffers hold at each boundary of @main, as the network's stage functions of the arguments.

  Before the first region the host operations have computed the edge data (row ends, column ends, edge weights) and,
  from the node features x, the two Chebyshev terms L̂ x and 2·L̂(L̂ x) − x, and have reshaped the bias to a row; the region
  then leaves layer 0 of the network in its result array (Dense0: the ten row blocks tile the array, and each block is
  the layer of the same rows of the inputs).  The stretch after it computes the two Chebyshev terms of THAT array from
  the same edge data, and so on: by induction over the three layers the three result arrays hold layer 0, layer 1 of
  layer 0, and layer 2 of layer 1 of layer 0.  An array a later stretch or region does not write keeps its contents,
  which is how the edge data of the first stretch and the earlier results reach the later boundaries.
-/
import proofs.«154369_j43688407335391_1_alg».proof.Proof.Gen.KernelIdeal.Frame
import proofs.«154369_j43688407335391_1_alg».proof.Proof.Dense0
import proofs.«154369_j43688407335391_1_alg».proof.Proof.Dense1
import proofs.«154369_j43688407335391_1_alg».proof.Proof.Dense2
import proofs.«154369_j43688407335391_1_alg».proof.Proof.Stages
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.ShloMosaic.ValueIdx Idealize.SL.Sem
open Cert.ChebNet

variable (m : (ℓ : Loc nD τ sig) → Buf (Elt Ideal) ℓ) (ρ : Dev nD → PrngReg)

/-! ## A buffer that is none of a region's arrays passes the region unchanged; an input array too -/

theorem W4_ne (c : Dev nD) {b : Ref sig .tc} (hb : ∀ w, Pipeline.arrRef spec0 w ≠ b) :
    W4 m ρ c (no_index (Proc.devRef .tc b)) = W3 m ρ c (Proc.devRef .tc b) := W4_of_ne m ρ c b hb
theorem W6_ne (c : Dev nD) {b : Ref sig .tc} (hb : ∀ w, Pipeline.arrRef spec1 w ≠ b) :
    W6 m ρ c (no_index (Proc.devRef .tc b)) = W5 m ρ c (Proc.devRef .tc b) := W6_of_ne m ρ c b hb
theorem W8_ne (c : Dev nD) {b : Ref sig .tc} (hb : ∀ w, Pipeline.arrRef spec2 w ≠ b) :
    W8 m ρ c (no_index (Proc.devRef .tc b)) = W7 m ρ c (Proc.devRef .tc b) := W8_of_ne m ρ c b hb

/-- Region 1 reads its first window's array (layer 0's result) and leaves it as it was. -/
theorem W6_in0 (c : Dev nD) : W6 m ρ c (Proc.devRef .tc main_v60) = W5 m ρ c (Proc.devRef .tc main_v60) :=
  (W6_arr m ρ c 0).trans (((dat1 (V5 m ρ) c).arrAt_in 0 rfl _).trans (A_eq1 (V5 m ρ) c 0))
/-- Region 2 reads its first window's array (layer 1's result) and leaves it as it was. -/
theorem W8_in0 (c : Dev nD) : W8 m ρ c (Proc.devRef .tc main_v91) = W7 m ρ c (Proc.devRef .tc main_v91) :=
  (W8_arr m ρ c 0).trans (((dat2 (V7 m ρ) c).arrAt_in 0 rfl _).trans (A_eq2 (V7 m ρ) c 0))

/-- Reads a buffer at a boundary back through the fold: each host operation's result at its own buffer is its function
    of its operands' contents, any other buffer is what it was; a region changes only its own arrays; a transport along a
    buffer's own type is the identity. -/
macro "fold_simp" : tactic =>
  `(tactic| simp (disch := decide) only [Cert.KernelIdeal.Gen.W0, Cert.KernelIdeal.Gen.W1, Cert.KernelIdeal.Gen.W2,
      Cert.KernelIdeal.Gen.W3, Cert.KernelIdeal.Gen.W5, Cert.KernelIdeal.Gen.W7,
      Cert.KernelIdeal.Gen.hostOps0, Cert.KernelIdeal.Gen.hostOps0_1, Cert.KernelIdeal.Gen.hostOps0_2,
      Cert.KernelIdeal.Gen.hostOps1, Cert.KernelIdeal.Gen.hostOps2,
      Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne',
      Cert.KernelIdeal.Net.W4_ne, Cert.KernelIdeal.Net.W6_ne, Cert.KernelIdeal.Net.W8_ne, _root_.cast_eq])

/-! ## Region 0's entry: the first stretches -/

theorem S3_arg0 (c : Dev nD) : W3 m ρ c (Proc.devRef .tc main_arg0) = m ((c : Thread nD τ).loc main_arg0) := by
  fold_simp
  try rfl
theorem S3_arg2 (c : Dev nD) : W3 m ρ c (Proc.devRef .tc main_arg2) = m ((c : Thread nD τ).loc main_arg2) := by
  fold_simp
  try rfl
theorem S3_arg3 (c : Dev nD) : W3 m ρ c (Proc.devRef .tc main_arg3) = m ((c : Thread nD τ).loc main_arg3) := by
  fold_simp
  try rfl
theorem S3_arg4 (c : Dev nD) : W3 m ρ c (Proc.devRef .tc main_arg4) = m ((c : Thread nD τ).loc main_arg4) := by
  fold_simp
  try rfl

set_option maxHeartbeats 4000000 in
theorem S3_v42 (c : Dev nD) : W3 m ρ c (Proc.devRef .tc main_v42)
    = lhat86 (m ((c : Thread nD τ).loc main_arg1)) (m ((c : Thread nD τ).loc main_arg0)) := by
  fold_simp
  rfl

set_option maxHeartbeats 4000000 in
theorem S3_v58 (c : Dev nD) : W3 m ρ c (Proc.devRef .tc main_v58)
    = cheb2_86 (m ((c : Thread nD τ).loc main_arg1)) (m ((c : Thread nD τ).loc main_arg0)) := by
  fold_simp
  rfl

set_option maxHeartbeats 4000000 in
theorem S3_v59 (c : Dev nD) : W3 m ρ c (Proc.devRef .tc main_v59)
    = shapeCast _ (m ((c : Thread nD τ).loc main_arg5)) shapeCasts_S128_S1x128 := by
  fold_simp
  try rfl

/-! ## Layer 0: region 0 -/

/-- Region 0 leaves layer 0 of the node features in its result array. -/
theorem X1_eq (c : Dev nD) : W4 m ρ c (Proc.devRef .tc main_v60)
    = layer0 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  refine (W4_arr m ρ c 7).trans ((Dense0.final (V3 m ρ) c).trans ?_)
  show Dense0.G (W3 m ρ c (Proc.devRef .tc main_arg0)) (W3 m ρ c (Proc.devRef .tc main_v42)) (W3 m ρ c (Proc.devRef .tc main_v58))
      (W3 m ρ c (Proc.devRef .tc main_arg2)) (W3 m ρ c (Proc.devRef .tc main_arg3)) (W3 m ρ c (Proc.devRef .tc main_arg4))
      (W3 m ρ c (Proc.devRef .tc main_v59)) = _
  rw [S3_arg0 m ρ c, S3_v42 m ρ c, S3_v58 m ρ c, S3_arg2 m ρ c, S3_arg3 m ρ c, S3_arg4 m ρ c, S3_v59 m ρ c]
  unfold layer0
  rw [dense0_eq]
  exact congrArg (ChebLayer.cheb _ _ _ _ _ _) (funext fun q => ChebLayer.reshape_row _ _ q)

/-! ## Layer 1: the stretch after region 0, and region 1 -/

set_option maxHeartbeats 4000000 in
theorem S5_v60 (c : Dev nD) : W5 m ρ c (Proc.devRef .tc main_v60)
    = (W4 m ρ c (Proc.devRef .tc main_v60)) := by
  fold_simp
  try rfl

set_option maxHeartbeats 4000000 in
theorem S5_v73 (c : Dev nD) : W5 m ρ c (Proc.devRef .tc main_v73)
    = lhat128 (m ((c : Thread nD τ).loc main_arg1)) (W4 m ρ c (Proc.devRef .tc main_v60)) := by
  fold_simp
  try rfl

set_option maxHeartbeats 4000000 in
theorem S5_v89 (c : Dev nD) : W5 m ρ c (Proc.devRef .tc main_v89)
    = cheb2_128 (m ((c : Thread nD τ).loc main_arg1)) (W4 m ρ c (Proc.devRef .tc main_v60)) := by
  fold_simp
  try rfl

set_option maxHeartbeats 4000000 in
theorem S5_v90 (c : Dev nD) : W5 m ρ c (Proc.devRef .tc main_v90)
    = shapeCast _ (m ((c : Thread nD τ).loc main_arg9)) shapeCasts_S256_S1x256 := by
  fold_simp
  try rfl

set_option maxHeartbeats 4000000 in
theorem S5_arg6 (c : Dev nD) : W5 m ρ c (Proc.devRef .tc main_arg6)
    = m ((c : Thread nD τ).loc main_arg6) := by
  fold_simp
  try rfl

set_option maxHeartbeats 4000000 in
theorem S5_arg7 (c : Dev nD) : W5 m ρ c (Proc.devRef .tc main_arg7)
    = m ((c : Thread nD τ).loc main_arg7) := by
  fold_simp
  try rfl

set_option maxHeartbeats 4000000 in
theorem S5_arg8 (c : Dev nD) : W5 m ρ c (Proc.devRef .tc main_arg8)
    = m ((c : Thread nD τ).loc main_arg8) := by
  fold_simp
  try rfl

/-- Region 1 leaves layer 1 of region 0's result in its result array. -/
theorem X2_eq (c : Dev nD) : W6 m ρ c (Proc.devRef .tc main_v91)
    = layer1 (m ((c : Thread nD τ).loc main_arg1)) (W4 m ρ c (Proc.devRef .tc main_v60)) (m ((c : Thread nD τ).loc main_arg6)) (m ((c : Thread nD τ).loc main_arg7)) (m ((c : Thread nD τ).loc main_arg8)) (m ((c : Thread nD τ).loc main_arg9)) := by
  refine (W6_arr m ρ c 7).trans ((Dense1.final (V5 m ρ) c).trans ?_)
  show Dense1.G (W5 m ρ c (Proc.devRef .tc main_v60)) (W5 m ρ c (Proc.devRef .tc main_v73)) (W5 m ρ c (Proc.devRef .tc main_v89))
      (W5 m ρ c (Proc.devRef .tc main_arg6)) (W5 m ρ c (Proc.devRef .tc main_arg7)) (W5 m ρ c (Proc.devRef .tc main_arg8))
      (W5 m ρ c (Proc.devRef .tc main_v90)) = _
  rw [S5_v60 m ρ c, S5_v73 m ρ c, S5_v89 m ρ c, S5_arg6 m ρ c, S5_arg7 m ρ c, S5_arg8 m ρ c, S5_v90 m ρ c]
  unfold layer1
  rw [dense1_eq]
  exact congrArg (ChebLayer.cheb _ _ _ _ _ _) (funext fun q => ChebLayer.reshape_row _ _ q)

/-! ## Layer 2: the stretch after region 1, and region 2 -/

set_option maxHeartbeats 4000000 in
theorem S7_v91 (c : Dev nD) : W7 m ρ c (Proc.devRef .tc main_v91)
    = (W6 m ρ c (Proc.devRef .tc main_v91)) := by
  fold_simp
  try rfl

set_option maxHeartbeats 4000000 in
theorem S7_v104 (c : Dev nD) : W7 m ρ c (Proc.devRef .tc main_v104)
    = lhat256 (m ((c : Thread nD τ).loc main_arg1)) (W6 m ρ c (Proc.devRef .tc main_v91)) := by
  fold_simp
  try rfl

set_option maxHeartbeats 4000000 in
theorem S7_v120 (c : Dev nD) : W7 m ρ c (Proc.devRef .tc main_v120)
    = cheb2_256 (m ((c : Thread nD τ).loc main_arg1)) (W6 m ρ c (Proc.devRef .tc main_v91)) := by
  fold_simp
  try rfl

set_option maxHeartbeats 4000000 in
theorem S7_v121 (c : Dev nD) : W7 m ρ c (Proc.devRef .tc main_v121)
    = shapeCast _ (m ((c : Thread nD τ).loc main_arg13)) shapeCasts_S512_S1x512 := by
  fold_simp
  try rfl

set_option maxHeartbeats 4000000 in
theorem S7_arg10 (c : Dev nD) : W7 m ρ c (Proc.devRef .tc main_arg10)
    = m ((c : Thread nD τ).loc main_arg10) := by
  fold_simp
  try rfl

set_option maxHeartbeats 4000000 in
theorem S7_arg11 (c : Dev nD) : W7 m ρ c (Proc.devRef .tc main_arg11)
    = m ((c : Thread nD τ).loc main_arg11) := by
  fold_simp
  try rfl

set_option maxHeartbeats 4000000 in
theorem S7_arg12 (c : Dev nD) : W7 m ρ c (Proc.devRef .tc main_arg12)
    = m ((c : Thread nD τ).loc main_arg12) := by
  fold_simp
  try rfl

/-- Region 2 leaves layer 2 of region 1's result in its result array. -/
theorem X3_eq (c : Dev nD) : W8 m ρ c (Proc.devRef .tc main_v122)
    = layer2 (m ((c : Thread nD τ).loc main_arg1)) (W6 m ρ c (Proc.devRef .tc main_v91)) (m ((c : Thread nD τ).loc main_arg10)) (m ((c : Thread nD τ).loc main_arg11)) (m ((c : Thread nD τ).loc main_arg12)) (m ((c : Thread nD τ).loc main_arg13)) := by
  refine (W8_arr m ρ c 7).trans ((Dense2.final (V7 m ρ) c).trans ?_)
  show Dense2.G (W7 m ρ c (Proc.devRef .tc main_v91)) (W7 m ρ c (Proc.devRef .tc main_v104)) (W7 m ρ c (Proc.devRef .tc main_v120))
      (W7 m ρ c (Proc.devRef .tc main_arg10)) (W7 m ρ c (Proc.devRef .tc main_arg11)) (W7 m ρ c (Proc.devRef .tc main_arg12))
      (W7 m ρ c (Proc.devRef .tc main_v121)) = _
  rw [S7_v91 m ρ c, S7_v104 m ρ c, S7_v120 m ρ c, S7_arg10 m ρ c, S7_arg11 m ρ c, S7_arg12 m ρ c, S7_v121 m ρ c]
  unfold layer2
  rw [dense2_eq]
  exact congrArg (ChebLayer.cheb _ _ _ _ _ _) (funext fun q => ChebLayer.reshape_row _ _ q)

/-! ## The three results at the last boundary -/

set_option maxHeartbeats 4000000 in
/-- Layer 0's result is not touched after region 0 (region 1 only reads it). -/
theorem keep_v60 (c : Dev nD) : W8 m ρ c (Proc.devRef .tc main_v60) = W4 m ρ c (Proc.devRef .tc main_v60) := by
  have h7 : W8 m ρ c (Proc.devRef .tc main_v60) = W6 m ρ c (Proc.devRef .tc main_v60) := by
    fold_simp
  rw [h7, W6_in0 m ρ c, S5_v60 m ρ c]

/-- Layer 1's result is not touched after region 1 (region 2 only reads it). -/
theorem keep_v91 (c : Dev nD) : W8 m ρ c (Proc.devRef .tc main_v91) = W6 m ρ c (Proc.devRef .tc main_v91) := by
  rw [W8_in0 m ρ c, S7_v91 m ρ c]

/-- The first result array ends holding layer 0 of the arguments. -/
theorem K1 (c : Dev nD) : W8 m ρ c (Proc.devRef .tc main_v60)
    = layer0 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) :=
  (keep_v60 m ρ c).trans (X1_eq m ρ c)

/-- The second ends holding layer 1 of the first. -/
theorem K2 (c : Dev nD) : W8 m ρ c (Proc.devRef .tc main_v91)
    = layer1 (m ((c : Thread nD τ).loc main_arg1)) (layer0 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  rw [keep_v91 m ρ c, X2_eq m ρ c, X1_eq m ρ c]

/-- The third ends holding layer 2 of the second. -/
theorem K3 (c : Dev nD) : W8 m ρ c (Proc.devRef .tc main_v122)
    = layer2 (m ((c : Thread nD τ).loc main_arg1)) (layer1 (m ((c : Thread nD τ).loc main_arg1)) (layer0 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg10)) (m ((c : Thread nD τ).loc main_arg11)) (m ((c : Thread nD τ).loc main_arg12)) (m ((c : Thread nD τ).loc main_arg13)) := by
  rw [X3_eq m ρ c, X2_eq m ρ c, X1_eq m ρ c]

end Cert.KernelIdeal.Net

end
-- ==== Proof.lean ====
/-
  The kernel and the reference compute the same three-layer Chebyshev graph network, as extended reals.

  Both programs first turn the edge list into edge weights w = −dinv[row]·dinv[col] (dinv the inverse square root of the
  row-end degree where it is positive) and apply, per layer, the scaled Laplacian twice by a gather and an accumulating
  scatter: z1 = L̂ x, z2 = 2·L̂ z1 − x.  They differ only in the dense stage max(x·W0 + z1·W1 + z2·W2 + b, 0): the
  reference spells it with three general dot products over all 20000 rows, the kernel with a pipelined region that
  walks ten blocks of 2000 rows, multiplying bf16-rounded operands into zero accumulators.  Over the extended reals a
  rounding is the identity and each product is the exact sum over the contracted axis, the additions are associated
  the same way on both sides, and an entry of the dense stage reads one row of the features only, so the ten row blocks
  are the restriction of one whole-array function (ChebLayer, Dense0–2).  Stage by stage the kernel's buffers therefore
  hold the reference's stages (KernelValue), and the three results agree (no law that needs finiteness is used: the
  precondition is never opened).
-/
import proofs.«154369_j43688407335391_1_alg».proof.Defs
import proofs.«154369_j43688407335391_1_alg».proof.Proof.Gen.Kernel
import proofs.«154369_j43688407335391_1_alg».proof.Proof.Gen.Kernel.Skeleton
import proofs.«154369_j43688407335391_1_alg».proof.Proof.Gen.Kernel.Launch
import proofs.«154369_j43688407335391_1_alg».proof.Proof.Gen.Kernel.Points
import proofs.«154369_j43688407335391_1_alg».proof.Proof.Gen.Kernel.Frame
import proofs.«154369_j43688407335391_1_alg».proof.Proof.Gen.KernelIdeal
import proofs.«154369_j43688407335391_1_alg».proof.Proof.Gen.KernelIdeal.Skeleton
import proofs.«154369_j43688407335391_1_alg».proof.Proof.Gen.KernelIdeal.Launch
import proofs.«154369_j43688407335391_1_alg».proof.Proof.Gen.KernelIdeal.Points
import proofs.«154369_j43688407335391_1_alg».proof.Proof.Gen.KernelIdeal.Frame
import proofs.«154369_j43688407335391_1_alg».proof.Proof.Gen.ReferenceIdeal
import proofs.«154369_j43688407335391_1_alg».proof.Proof.Gen.Pre_finite_inputs
import proofs.«154369_j43688407335391_1_alg».proof.Proof.RefRun
import proofs.«154369_j43688407335391_1_alg».proof.Proof.RefValue
import proofs.«154369_j43688407335391_1_alg».proof.Proof.KernelRun
import proofs.«154369_j43688407335391_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run with the three results dropped. -/
theorem frame_ri : Cert.frame_ReferenceIdeal := fun m ρ _ =>
  (θ_run Cert.ReferenceIdeal.defs _ _).mono (fun _ h c => (h c).2.2.2)
    (Cert.ReferenceIdeal.ValueP.run (F := Ideal) m ρ)

/-- The ideal pass rewrote nothing: the idealized kernel is the kernel's own text read over the extended reals. -/
theorem preserves : Cert.preserves_Kernel_KernelIdeal := trivial

/-- From memories agreeing on the arguments both programs end with the three layers of the network in their results. -/
theorem algebraic : Cert.algebraic_KernelIdeal_ReferenceIdeal := by
  intro m ρ m' ρ' _ hagree
  refine ⟨fun c => Cert.KernelIdeal.Gen.W8 m ρ c (Proc.devRef .tc Cert.KernelIdeal.main_v60),
    fun c => Cert.KernelIdeal.Gen.W8 m ρ c (Proc.devRef .tc Cert.KernelIdeal.main_v91),
    fun c => Cert.KernelIdeal.Gen.W8 m ρ c (Proc.devRef .tc Cert.KernelIdeal.main_v122),
    Cert.KernelIdeal.Fold.run_fold m ρ, ?_⟩
  refine (θ_run Cert.ReferenceIdeal.defs _ _).mono (fun r h c => ?_) (Cert.ReferenceIdeal.ValueP.run (F := Ideal) m' ρ')
  obtain ⟨h0, h1, h2, hargs⟩ := h c
  obtain ⟨g0, g1, g2, g3, g4, g5, g6, g7, g8, g9, g10, g11, g12, g13⟩ := hagree c
  have e0 : Cert.ReferenceIdeal.ValueP.res_main_v67 (F := Ideal) m' c
      = Cert.KernelIdeal.Gen.W8 m ρ c (Proc.devRef .tc Cert.KernelIdeal.main_v60) := by
    rw [Cert.ReferenceIdeal.Net.out0_eq, g0, g1, g2, g3, g4, g5]
    exact (Cert.KernelIdeal.Net.K1 m ρ c).symm
  have e1 : Cert.ReferenceIdeal.ValueP.res_main_v105 (F := Ideal) m' c
      = Cert.KernelIdeal.Gen.W8 m ρ c (Proc.devRef .tc Cert.KernelIdeal.main_v91) := by
    rw [Cert.ReferenceIdeal.Net.out1_eq, Cert.ReferenceIdeal.Net.out0_eq, g0, g1, g2, g3, g4, g5, g6, g7, g8, g9]
    exact (Cert.KernelIdeal.Net.K2 m ρ c).symm
  have e2 : Cert.ReferenceIdeal.ValueP.res_main_v143 (F := Ideal) m' c
      = Cert.KernelIdeal.Gen.W8 m ρ c (Proc.devRef .tc Cert.KernelIdeal.main_v122) := by
    rw [Cert.ReferenceIdeal.Net.out2_eq, Cert.ReferenceIdeal.Net.out1_eq, Cert.ReferenceIdeal.Net.out0_eq,
      g0, g1, g2, g3, g4, g5, g6, g7, g8, g9, g10, g11, g12, g13]
    exact (Cert.KernelIdeal.Net.K3 m ρ c).symm
  exact ⟨h0.trans e0, h1.trans e1, h2.trans e2, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
